-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x3200000 : Shape := ⟨2, ![2, 3200000]⟩
abbrev S64x12 : Shape := ⟨2, ![64, 12]⟩
abbrev S64 : Shape := ⟨1, ![64]⟩
abbrev S13x64 : Shape := ⟨2, ![13, 64]⟩
abbrev S13 : Shape := ⟨1, ![13]⟩
abbrev S13x13 : Shape := ⟨2, ![13, 13]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S64x12 : S_.BroadcastsInDim S64x12 (![] : Fin 0 → Fin S64x12.rank)
  reducesTo_S64x12_S_d0_1 : S64x12.ReducesTo [0, 1] S_
  bcast_S_S64 : S_.BroadcastsInDim S64 (![] : Fin 0 → Fin S64.rank)
  reducesTo_S64_S_d0 : S64.ReducesTo [0] S_
  bcast_S_S13x64 : S_.BroadcastsInDim S13x64 (![] : Fin 0 → Fin S13x64.rank)
  reducesTo_S13x64_S_d0_1 : S13x64.ReducesTo [0, 1] S_
  bcast_S_S13 : S_.BroadcastsInDim S13 (![] : Fin 0 → Fin S13.rank)
  reducesTo_S13_S_d0 : S13.ReducesTo [0] S_
  bcast_S_S13x13 : S_.BroadcastsInDim S13x13 (![] : Fin 0 → Fin S13x13.rank)
  reducesTo_S13x13_S_d0_1 : S13x13.ReducesTo [0, 1] S_

variable [Facts]

def fn_part2 {F : FTy → Type} [FloatOps F] (main_arg8 : FVec F S13x13 .f32) (main_v33 : IVec S_ 1) : IVec S_ 1 :=
  let main_v34 : FVec F S13x13 .f32 := Host.absf main_arg8
  let main_cst_12 : FVec F S_ .f32 := constant S_ .f32 0x7F800000#32
  let main_v35 : FVec F S13x13 .f32 := broadcastInDim S13x13 ![] bcast_S_S13x13 main_cst_12
  let main_v36 : IVec S13x13 1 := cmpf .olt main_v34 main_v35
  let main_c_13 : IVec S_ 1 := constantI S_ 1 1#1
  let main_v37 : IVec S_ 1 := (fun x v => Host.reduce IntOp.andi x v reducesTo_S13x13_S_d0_1 h_S_) main_v36 main_c_13
  let main_v38 : IVec S_ 1 := andi main_v33 main_v37
  main_v38

def fn_part1 {F : FTy → Type} [FloatOps F] (main_arg5 : FVec F S13x64 .f32) (main_arg6 : FVec F S13x64 .f32) (main_arg7 : FVec F S13 .f32) (main_arg8 : FVec F S13x13 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S13x64 .f32 := Host.absf main_arg5
  let main_cst_6 : FVec F S_ .f32 := constant S_ .f32 0x7F800000#32
  let main_v20 : FVec F S13x64 .f32 := broadcastInDim S13x64 ![] bcast_S_S13x64 main_cst_6
  let main_v21 : IVec S13x64 1 := cmpf .olt main_v19 main_v20
  let main_c_7 : IVec S_ 1 := constantI S_ 1 1#1
  let main_v22 : IVec S_ 1 := (fun x v => Host.reduce IntOp.andi x v reducesTo_S13x64_S_d0_1 h_S_) main_v21 main_c_7
  let main_v23 : IVec S_ 1 := andi main_v18 main_v22
  let main_v24 : FVec F S13x64 .f32 := Host.absf main_arg6
  let main_cst_8 : FVec F S_ .f32 := constant S_ .f32 0x7F800000#32
  let main_v25 : FVec F S13x64 .f32 := broadcastInDim S13x64 ![] bcast_S_S13x64 main_cst_8
  let main_v26 : IVec S13x64 1 := cmpf .olt main_v24 main_v25
  let main_c_9 : IVec S_ 1 := constantI S_ 1 1#1
  let main_v27 : IVec S_ 1 := (fun x v => Host.reduce IntOp.andi x v reducesTo_S13x64_S_d0_1 h_S_) main_v26 main_c_9
  let main_v28 : IVec S_ 1 := andi main_v23 main_v27
  let main_v29 : FVec F S13 .f32 := Host.absf main_arg7
  let main_cst_10 : FVec F S_ .f32 := constant S_ .f32 0x7F800000#32
  let main_v30 : FVec F S13 .f32 := broadcastInDim S13 ![] bcast_S_S13 main_cst_10
  let main_v31 : IVec S13 1 := cmpf .olt main_v29 main_v30
  let main_c_11 : IVec S_ 1 := constantI S_ 1 1#1
  let main_v32 : IVec S_ 1 := (fun x v => Host.reduce IntOp.andi x v reducesTo_S13_S_d0 h_S_) main_v31 main_c_11
  let main_v33 : IVec S_ 1 := andi main_v28 main_v32
  fn_part2 (F := F) main_arg8 main_v33

def fn {F : FTy → Type} [FloatOps F] (main_arg0 : FVec F S100000x12 .f32) (main_arg1 : IVec S2x3200000 32) (main_arg2 : FVec F S64x12 .f32) (main_arg3 : FVec F S64x12 .f32) (main_arg4 : FVec F S64 .f32) (main_arg5 : FVec F S13x64 .f32) (main_arg6 : FVec F S13x64 .f32) (main_arg7 : FVec F S13 .f32) (main_arg8 : FVec F S13x13 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S64x12 .f32 := Host.absf main_arg2
  let main_cst_0 : FVec F S_ .f32 := constant S_ .f32 0x7F800000#32
  let main_v5 : FVec F S64x12 .f32 := broadcastInDim S64x12 ![] bcast_S_S64x12 main_cst_0
  let main_v6 : IVec S64x12 1 := cmpf .olt main_v4 main_v5
  let main_c_1 : IVec S_ 1 := constantI S_ 1 1#1
  let main_v7 : IVec S_ 1 := (fun x v => Host.reduce IntOp.andi x v reducesTo_S64x12_S_d0_1 h_S_) main_v6 main_c_1
  let main_v8 : IVec S_ 1 := andi main_v3 main_v7
  let main_v9 : FVec F S64x12 .f32 := Host.absf main_arg3
  let main_cst_2 : FVec F S_ .f32 := constant S_ .f32 0x7F800000#32
  let main_v10 : FVec F S64x12 .f32 := broadcastInDim S64x12 ![] bcast_S_S64x12 main_cst_2
  let main_v11 : IVec S64x12 1 := cmpf .olt main_v9 main_v10
  let main_c_3 : IVec S_ 1 := constantI S_ 1 1#1
  let main_v12 : IVec S_ 1 := (fun x v => Host.reduce IntOp.andi x v reducesTo_S64x12_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x12 : Shape := ⟨2, ![100000, 12]⟩
abbrev S2x3200000 : Shape := ⟨2, ![2, 3200000]⟩
abbrev S64x12 : Shape := ⟨2, ![64, 12]⟩
abbrev S64 : Shape := ⟨1, ![64]⟩
abbrev S13x64 : Shape := ⟨2, ![13, 64]⟩
abbrev S13 : Shape := ⟨1, ![13]⟩
abbrev S13x13 : Shape := ⟨2, ![13, 13]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x12 : Shape := ⟨2, ![3200000, 12]⟩
abbrev S12x64 : Shape := ⟨2, ![12, 64]⟩
abbrev S1x64 : Shape := ⟨2, ![1, 64]⟩
abbrev S100000x64 : Shape := ⟨2, ![100000, 64]⟩
abbrev S5000x12 : Shape := ⟨2, ![5000, 12]⟩
abbrev S5000x64 : Shape := ⟨2, ![5000, 64]⟩
abbrev S3200000x64 : Shape := ⟨2, ![3200000, 64]⟩
abbrev S64x13 : Shape := ⟨2, ![64, 13]⟩
abbrev S1x13 : Shape := ⟨2, ![1, 13]⟩
abbrev S100000x13 : Shape := ⟨2, ![100000, 13]⟩
abbrev S2000x64 : Shape := ⟨2, ![2000, 64]⟩
abbrev S2000x13 : Shape := ⟨2, ![2000, 13]⟩
abbrev S2000x1x13 : Shape := ⟨3, ![2000, 1, 13]⟩
abbrev S1x13x13 : Shape := ⟨3, ![1, 13, 13]⟩
abbrev S2000x13x13 : Shape := ⟨3, ![2000, 13, 13]⟩

abbrev nBuf : Space → Nat
  | .hbm => 64
  | .vmem => 19
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S64x12, .f32⟩
  | .hbm, ⟨3, _⟩ => ⟨S64x12, .f32⟩
  | .hbm, ⟨4, _⟩ => ⟨S64, .f32⟩
  | .hbm, ⟨5, _⟩ => ⟨S13x64, .f32⟩
  | .hbm, ⟨6, _⟩ => ⟨S13x64, .f32⟩
  | .hbm, ⟨7, _⟩ => ⟨S13, .f32⟩
  | .hbm, ⟨8, _⟩ => ⟨S13x13, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x12, .f32⟩
  | .hbm, ⟨35, _⟩ => ⟨S_, .f32⟩
  | .hbm, ⟨36, _⟩ => ⟨S100000x12, .f32⟩
  | .hbm, ⟨37, _⟩ => ⟨S3200000x1, .i32⟩
  | .hbm, ⟨38, _⟩ => ⟨S100000x12, .f32⟩
  | .hbm, ⟨39, _⟩ => ⟨S100000x12, .f32⟩
  | .hbm, ⟨40, _⟩ => ⟨S100000x12, .f32⟩
  | .hbm, ⟨41, _⟩ => ⟨S12x64, .f32⟩
  | .hbm, ⟨42, _⟩ => ⟨S12x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S64x13, .f32⟩
  | .hbm, ⟨61, _⟩ => ⟨S64x13, .f32⟩
  | .hbm, ⟨62, _⟩ => ⟨S1x13, .f32⟩
  | .hbm, ⟨63, _⟩ => ⟨S100000x13, .f32⟩
  | .local _ .vmem, ⟨0, _⟩ => ⟨S5000x12, .f32⟩
  | .local _ .vmem, ⟨1, _⟩ => ⟨S5000x12, .f32⟩
  | .local _ .vmem, ⟨2, _⟩ => ⟨S5000x12, .f32⟩
  | .local _ .vmem, ⟨3, _⟩ => ⟨S5000x12, .f32⟩
  | .local _ .vmem, ⟨4, _⟩ => ⟨S12x64, .f32⟩
  | .local _ .vmem, ⟨5, _⟩ => ⟨S12x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x13, .f32⟩
  | .local _ .vmem, ⟨14, _⟩ => ⟨S64x13, .f32⟩
  | .local _ .vmem, ⟨15, _⟩ => ⟨S1x13, .f32⟩
  | .local _ .vmem, ⟨16, _⟩ => ⟨S13x13, .f32⟩
  | .local _ .vmem, ⟨17, _⟩ => ⟨S2000x13, .f32⟩
  | .local _ .vmem, ⟨18, _⟩ => ⟨S2000x13, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x13 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x13 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S13x13 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x13 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x12 : S_.BroadcastsInDim S100000x12 (![] : Fin 0 → Fin S100000x12.rank)
  bcast_S100000x1_S100000x12_0_1 : S100000x1.BroadcastsInDim S100000x12 (![0, 1] : Fin 2 → Fin S100000x12.rank)
  transposes_S64x12_S12x64_1_0 : S64x12.Transposes [1, 0] S12x64
  shapeCasts_S64_S1x64 : S64.ShapeCasts S1x64
  inb_S5000x12_S5000x12_0_0 : ∀ a, (![0, 0] : Fin 2 → Nat) a + S5000x12.size a ≤ S5000x12.size a
  h_S5000x12 : 0 < S5000x12.numel
  shapeCasts_S5000x12_S5000x12 : S5000x12.ShapeCasts S5000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S13x64_S64x13_1_0 : S13x64.Transposes [1, 0] S64x13
  shapeCasts_S13_S1x13 : S13.ShapeCasts S1x13
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x13_S64x13_0_0 : ∀ a, (![0, 0] : Fin 2 → Nat) a + S64x13.size a ≤ S64x13.size a
  h_S64x13 : 0 < S64x13.numel
  shapeCasts_S64x13_S64x13 : S64x13.ShapeCasts S64x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S2000x13 : S1x13.Broadcasts S2000x13
  inb_S13x13_S13x13_0_0 : ∀ a, (![0, 0] : Fin 2 → Nat) a + S13x13.size a ≤ S13x13.size a
  h_S13x13 : 0 < S13x13.numel
  shapeCasts_S2000x13_S2000x1x13 : S2000x13.ShapeCasts S2000x1x13
  shapeCasts_S13x13_S1x13x13 : S13x13.ShapeCasts S1x13x13
  broadcasts_S2000x1x13_S2000x13x13 : S2000x1x13.Broadcasts S2000x13x13
  broadcasts_S1x13x13_S2000x13x13 : S1x13x13.Broadcasts S2000x13x13
  reduces_S2000x13x13_S2000x13 : S2000x13x13.Reduces [2] S2000x13
  inb_S2000x13_S2000x13_0_0 : ∀ a, (![0, 0] : Fin 2 → Nat) a + S2000x13.size a ≤ S2000x13.size a
  h_S2000x13 : 0 < S2000x13.numel
  scatter_S100000_S3200000x1_S3200000_n_0_0_1_wf : ScatterDims.WF S100000 S3200000x1 S3200000 [] [0] [0] 1
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S5000x12_S12x64_S5000x64_1_0_0_1_n_n_wf : DotDims.WF S5000x12 S12x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x13_S2000x13_1_0_0_1_n_n_wf : DotDims.WF S2000x64 S64x13 S2000x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S100000x12.size a
  hwx0_0 : ∀ i : grid0.Coords, EltTy.bits .f32 = 32 ∨ (Rect.block (s := S100000x12) S5000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x12.size a ≤ S100000x12.size a
  hwx0_1 : ∀ i : grid0.Coords, EltTy.bits .f32 = 32 ∨ (Rect.block (s := S100000x12) S5000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x64.size a ≤ S12x64.size a
  hwx0_3 : ∀ i : grid0.Coords, EltTy.bits .f32 = 32 ∨ (Rect.block (s := S12x64) S12x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x13.size a ≤ S64x13.size a
  hwx1_2 : ∀ i : grid1.Coords, EltTy.bits .f32 = 32 ∨ (Rect.block (s := S64x13) S64x13.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x13.size a ≤ S64x13.size a
  hwx1_3 : ∀ i : grid1.Coords, EltTy.bits .f32 = 32 ∨ (Rect.block (s := S64x13) S64x13.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x13.size a ≤ S1x13.size a
  hwx1_4 : ∀ i : grid1.Coords, EltTy.bits .f32 = 32 ∨ (Rect.block (s := S1x13) S1x13.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S13x13.size a ≤ S13x13.size a
  hwx1_5 : ∀ i : grid1.Coords, EltTy.bits .f32 = 32 ∨ (Rect.block (s := S13x13) S13x13.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x13.size a ≤ S100000x13.size a
  hwx1_6 : ∀ i : grid1.Coords, EltTy.bits .f32 = 32 ∨ (Rect.block (s := S100000x13) S2000x13.size (cc1_transform_6 i) (hinb1_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x13_S2000x13_1_0_0_1_n_n : DotDims S2000x64 S64x13 S2000x13 where
  lhsContracting := [1]
  rhsContracting := [0]
  lhsNonContracting := [0]
  rhsNonContracting := [1]
  lhsBatch := []
  rhsBatch := []
  wf := dot_S2000x64_S64x13_S2000x13_1_0_0_1_n_n_wf

abbrev win0_0 : Pipeline.Window sig grid0 :=
  Pipeline.Window.ofSpec (Memref.whole main_v24) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S12x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x13.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x13.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x13.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S13x13.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x13.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x12 : Shape := ⟨2, ![100000, 12]⟩
abbrev S2x3200000 : Shape := ⟨2, ![2, 3200000]⟩
abbrev S64x12 : Shape := ⟨2, ![64, 12]⟩
abbrev S64 : Shape := ⟨1, ![64]⟩
abbrev S13x64 : Shape := ⟨2, ![13, 64]⟩
abbrev S13 : Shape := ⟨1, ![13]⟩
abbrev S13x13 : Shape := ⟨2, ![13, 13]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x12 : Shape := ⟨2, ![3200000, 12]⟩
abbrev S100000 : Shape := ⟨1, ![100000]⟩
abbrev S100000x1 : Shape := ⟨2, ![100000, 1]⟩
abbrev S12x64 : Shape := ⟨2, ![12, 64]⟩
abbrev S100000x64 : Shape := ⟨2, ![100000, 64]⟩
abbrev S1x64 : Shape := ⟨2, ![1, 64]⟩
abbrev S3200000x64 : Shape := ⟨2, ![3200000, 64]⟩
abbrev S64x13 : Shape := ⟨2, ![64, 13]⟩
abbrev S100000x13 : Shape := ⟨2, ![100000, 13]⟩
abbrev S1x13 : Shape := ⟨2, ![1, 13]⟩
abbrev S1x13x13 : Shape := ⟨3, ![1, 13, 13]⟩
abbrev S100000x1x13 : Shape := ⟨3, ![100000, 1, 13]⟩
abbrev S100000x13x13 : Shape := ⟨3, ![100000, 13, 13]⟩

abbrev nBuf : Space → Nat
  | .hbm => 101
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S64x12, .f32⟩
  | .hbm, ⟨3, _⟩ => ⟨S64x12, .f32⟩
  | .hbm, ⟨4, _⟩ => ⟨S64, .f32⟩
  | .hbm, ⟨5, _⟩ => ⟨S13x64, .f32⟩
  | .hbm, ⟨6, _⟩ => ⟨S13x64, .f32⟩
  | .hbm, ⟨7, _⟩ => ⟨S13, .f32⟩
  | .hbm, ⟨8, _⟩ => ⟨S13x13, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x12, .f32⟩
  | .hbm, ⟨22, _⟩ => ⟨S_, .f32⟩
  | .hbm, ⟨23, _⟩ => ⟨S100000x12, .f32⟩
  | .hbm, ⟨24, _⟩ => ⟨S3200000x1, .i32⟩
  | .hbm, ⟨25, _⟩ => ⟨S100000x12, .f32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x12, .f32⟩
  | .hbm, ⟨37, _⟩ => ⟨S100000x12, .f32⟩
  | .hbm, ⟨38, _⟩ => ⟨S12x64, .f32⟩
  | .hbm, ⟨39, _⟩ => ⟨S100000x64, .f32⟩
  | .hbm, ⟨40, _⟩ => ⟨S12x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x3200000, .i32⟩
  | .hbm, ⟨50, _⟩ => ⟨S3200000, .i32⟩
  | .hbm, ⟨51, _⟩ => ⟨S1x3200000, .i32⟩
  | .hbm, ⟨52, _⟩ => ⟨S3200000, .i32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x64, .f32⟩
  | .hbm, ⟨62, _⟩ => ⟨S_, .f32⟩
  | .hbm, ⟨63, _⟩ => ⟨S100000x64, .f32⟩
  | .hbm, ⟨64, _⟩ => ⟨S3200000x1, .i32⟩
  | .hbm, ⟨65, _⟩ => ⟨S100000x64, .f32⟩
  | .hbm, ⟨66, _⟩ => ⟨S_, .f32⟩
  | .hbm, ⟨67, _⟩ => ⟨S3200000, .f32⟩
  | .hbm, ⟨68, _⟩ => ⟨S_, .f32⟩
  | .hbm, ⟨69, _⟩ => ⟨S100000, .f32⟩
  | .hbm, ⟨70, _⟩ => ⟨S3200000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S64x13, .f32⟩
  | .hbm, ⟨79, _⟩ => ⟨S100000x13, .f32⟩
  | .hbm, ⟨80, _⟩ => ⟨S64x13, .f32⟩
  | .hbm, ⟨81, _⟩ => ⟨S100000x13, .f32⟩
  | .hbm, ⟨82, _⟩ => ⟨S100000x13, .f32⟩
  | .hbm, ⟨83, _⟩ => ⟨S1x13, .f32⟩
  | .hbm, ⟨84, _⟩ => ⟨S100000x13, .f32⟩
  | .hbm, ⟨85, _⟩ => ⟨S100000x13, .f32⟩
  | .hbm, ⟨86, _⟩ => ⟨S100000x13, .f32⟩
  | .hbm, ⟨87, _⟩ => ⟨S100000x13, .f32⟩
  | .hbm, ⟨88, _⟩ => ⟨S_, .f32⟩
  | .hbm, ⟨89, _⟩ => ⟨S100000x13, .f32⟩
  | .hbm, ⟨90, _⟩ => ⟨S100000x13, .f32⟩
  | .hbm, ⟨91, _⟩ => ⟨S_, .f32⟩
  | .hbm, ⟨92, _⟩ => ⟨S100000x13, .f32⟩
  | .hbm, ⟨93, _⟩ => ⟨S100000x13, .f32⟩
  | .hbm, ⟨94, _⟩ => ⟨S1x13x13, .f32⟩
  | .hbm, ⟨95, _⟩ => ⟨S100000x1x13, .f32⟩
  | .hbm, ⟨96, _⟩ => ⟨S100000x13x13, .f32⟩
  | .hbm, ⟨97, _⟩ => ⟨S100000x13x13, .f32⟩
  | .hbm, ⟨98, _⟩ => ⟨S100000x13x13, .f32⟩
  | .hbm, ⟨99, _⟩ => ⟨S_, .f32⟩
  | .hbm, ⟨100, _⟩ => ⟨S100000x13, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x12 : S_.BroadcastsInDim S100000x12 (![] : Fin 0 → Fin S100000x12.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  transposes_S64x12_S12x64_1_0 : S64x12.Transposes [1, 0] S12x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S13x64_S64x13_1_0 : S13x64.Transposes [1, 0] S64x13
  bcast_S13_S1x13_1 : S13.BroadcastsInDim S1x13 (![1] : Fin 1 → Fin S1x13.rank)
  bcast_S1x13_S100000x13_0_1 : S1x13.BroadcastsInDim S100000x13 (![0, 1] : Fin 2 → Fin S100000x13.rank)
  bcast_S_S100000x13 : S_.BroadcastsInDim S100000x13 (![] : Fin 0 → Fin S100000x13.rank)
  bcast_S13x13_S1x13x13_1_2 : S13x13.BroadcastsInDim S1x13x13 (![1, 2] : Fin 2 → Fin S1x13x13.rank)
  bcast_S100000x13_S100000x1x13_0_2 : S100000x13.BroadcastsInDim S100000x1x13 (![0, 2] : Fin 2 → Fin S100000x1x13.rank)
  bcast_S1x13x13_S100000x13x13_0_1_2 : S1x13x13.BroadcastsInDim S100000x13x13 (![0, 1, 2] : Fin 3 → Fin S100000x13x13.rank)
  bcast_S100000x1x13_S100000x13x13_0_1_2 : S100000x1x13.BroadcastsInDim S100000x13x13 (![0, 1, 2] : Fin 3 → Fin S100000x13x13.rank)
  reducesTo_S100000x13x13_S100000x13_d2 : S100000x13x13.ReducesTo [2] S100000x13
  h_S_ : 0 < S_.numel
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  scatter_S100000_S3200000x1_S3200000_n_0_0_1_wf : ScatterDims.WF S100000 S3200000x1 S3200000 [] [0] [0] 1
  dot_S100000x12_S12x64_S100000x64_1_0_0_1_n_n_wf : DotDims.WF S100000x12 S12x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x13_S100000x13_1_0_0_1_n_n_wf : DotDims.WF S100000x64 S64x13 S100000x13 [1] [0] [0] [1] [] []

variable [Facts₀]

def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x13_S100000x13_1_0_0_1_n_n : DotDims S100000x64 S64x13 S100000x13 where
  lhsContracting := [1]
  rhsContracting := [0]
  lhsNonContracting := [0]
  rhsNonContracting := [1]
  lhsBatch := []
  rhsBatch := []
  wf := dot_S100000x64_S64x13_S100000x13_1_0_0_1_n_n_wf

class Facts : Prop extends Facts₀ where

variable [Facts]
-- ==== Proof.KernelRun.lean ====
/-
  The kernel program's run, with its result named.

  The program is four segments in order: host operations, the first kernel's region, host operations, the second
  kernel's region.  Its run keeps, at every boundary between segments, the contents of every buffer that outlives a
  region as a fold from the launch memory: after a stretch of host operations, those operations applied; after a
  region, the region's arrays at what its write-backs leave and every other buffer as it was.  At the end every such
  buffer holds the last boundary's contents.  The frame reads the argument buffers off that final state; here the
  result buffer is read off it as well, so the run ends with the result buffer at the last fold's value there and the
  arguments unchanged.
-/
import proofs.«181247_j57294863729409_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.SageRun

end
-- ==== Proof.Spec.lean ====
/-
  The two layers of the graph network, as functions of arrays over the extended reals, entry by entry.

  A layer takes the neighbour average A and the node features X (both [n, k]), two weight matrices P and Q laid
  out [k, o], and a bias β with one entry per output feature.  Its pre-activation at node p and output feature q is

      pre p q  =  Σ_j A[p, j] · P[j, q]  +  Σ_j X[p, j] · Q[j, q]  +  β[q].

  The first layer's output is max (pre p q) 0.  The second layer squashes the pre-activation with the logistic
  function and then, for each node p and class i, takes over all classes j the largest of logistic (pre p j) · R[i, j],
  starting the maximum from −∞.  The zero and −∞ are kept as the bit patterns both programs write, so they are
  never evaluated.

  Everything is stated for arbitrary extents n, k, o: the same definition is used for one block of rows of a
  kernel and for the whole array.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The pre-activation of a layer at node `p` and output feature `q`. -/
def pre {n k o : Nat} (A X : (⟨2, ![n, k]⟩ : Shape).Idx → EReal) (P Q : (⟨2, ![k, o]⟩ : Shape).Idx → EReal)
    (β : Fin o → EReal) (p : Fin n) (q : Fin o) : EReal :=
  (∑ j : Fin k, A (ix2 p j) * P (ix2 j q)) + (∑ j : Fin k, X (ix2 p j) * Q (ix2 j q)) + β q

/-- The first layer: the pre-activation clamped below at zero. -/
def hidden {n k o : Nat} (A X : (⟨2, ![n, k]⟩ : Shape).Idx → EReal) (P Q : (⟨2, ![k, o]⟩ : Shape).Idx → EReal)
    (β : Fin o → EReal) : (⟨2, ![n, o]⟩ : Shape).Idx → EReal :=
  fun i => max (pre A X P Q β (i 0) (i 1)) (Ideal.ofBits .f32 0x00000000#32)

/-- The second layer with the hierarchy constraint: at node `p` and class `i`, the largest over the classes `j` of
    logistic (pre p j) · R[i, j], from −∞. -/
def constrained {n k o : Nat} (A H : (⟨2, ![n, k]⟩ : Shape).Idx → EReal) (P Q : (⟨2, ![k, o]⟩ : Shape).Idx → EReal)
    (β : Fin o → EReal) (R : (⟨2, ![o, o]⟩ : Shape).Idx → EReal) : (⟨2, ![n, o]⟩ : Shape).Idx → EReal :=
  fun i => (Finset.univ : Finset (Fin o)).fold max (Ideal.ofBits .f32 0xFF800000#32)
    (fun j => Ideal.logistic (pre A H P Q β (i 0) j) * R (ix2 (i 1) j))

theorem hidden_apply {n k o : Nat} (A X : (⟨2, ![n, k]⟩ : Shape).Idx → EReal) (P Q : (⟨2, ![k, o]⟩ : Shape).Idx → EReal)
    (β : Fin o → EReal) (p : Fin n) (q : Fin o) :
    hidden A X P Q β (ix2 p q) = max (pre A X P Q β p q) (Ideal.ofBits .f32 0x00000000#32) := rfl

theorem constrained_apply {n k o : Nat} (A H : (⟨2, ![n, k]⟩ : Shape).Idx → EReal) (P Q : (⟨2, ![k, o]⟩ : Shape).Idx → EReal)
    (β : Fin o → EReal) (R : (⟨2, ![o, o]⟩ : Shape).Idx → EReal) (p : Fin n) (i : Fin o) :
    constrained A H P Q β R (ix2 p i) = (Finset.univ : Finset (Fin o)).fold max (Ideal.ofBits .f32 0xFF800000#32)
      (fun j => Ideal.logistic (pre A H P Q β p j) * R (ix2 i j)) := rfl

/-- The logistic function spelt out: 1 / (1 + e^(−s)), with the quotient of the extended reals. -/
theorem logistic_spelt (s : EReal) : Ideal.div 1 (1 + Ideal.exp (-s)) = Ideal.logistic s := rfl

end Cert.Sage

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.Body0.lean ====
/-
  The first kernel's arithmetic on one block of 5000 rows.

  On a block the kernel multiplies the block of neighbour averages by one weight matrix and the block of node
  features by the other (both products accumulate from zero, and rounding the operands to a narrower format changes
  nothing on the extended reals), adds the two products, adds the bias row broadcast down the rows, and clamps the
  result below at zero.  Entry (p, q) of the stored block is therefore

      max (Σ_j A[p, j] · P[j, q] + Σ_j X[p, j] · Q[j, q] + b[0, q]) 0,

  which is the first layer's function of the block's operands.
-/
import proofs.«181247_j57294863729409_2_alg».proof.Proof.Gen.KernelIdeal.Skeleton
import proofs.«181247_j57294863729409_2_alg».proof.Proof.Spec
import proofs.«181247_j57294863729409_2_alg».proof.Proof.LibRank2Layout
import Idealize.ShloMosaic.Lib.ValueIdx
import Idealize.ShloMosaic.Lib.Pipeline.Value
import Idealize.ShloMosaic.PureOps.Ideal.Laws

noncomputable section

namespace Cert.KernelIdeal.SageBody

open Cert.KernelIdeal Cert.KernelIdeal.Gen Cert.Sage Idealize.ShloMosaic Idealize.ShloMosaic.ValueIdx

/-- Row `p` of a [5000, 12] block times column `q` of a [12, 64] matrix, accumulated from zero: the sum over the
    twelve shared coordinates of the products. -/
theorem matmul0_apply (a : FVec Ideal S5000x12 .bf16) (w : FVec Ideal S12x64 .bf16) (p : Fin 5000) (q : Fin 64) :
    matmul dot_S5000x12_S12x64_S5000x64_1_0_0_1_n_n none a w (constant (F := Ideal) S5000x64 .f32 0x00000000#32) (ix2 p q)
      = ∑ k : Fin 12, a (ix2 p k) * w (ix2 k q) := by
  simp only [matmul]
  rw [Ideal.matmul_constant_zero_apply, ← Equiv.sum_comp (contrEquiv1 dot_S5000x12_S12x64_S5000x64_1_0_0_1_n_n 12 rfl rfl).symm]
  refine Finset.sum_congr rfl fun k _ => ?_
  have hk := contrEquiv1_symm_val dot_S5000x12_S12x64_S5000x64_1_0_0_1_n_n 12 rfl rfl k
  have el : dot_S5000x12_S12x64_S5000x64_1_0_0_1_n_n.lhsIdx (ix2 p q) ((contrEquiv1 dot_S5000x12_S12x64_S5000x64_1_0_0_1_n_n 12 rfl rfl).symm k) = ix2 p k :=
    funext fun d => Fin.ext (by
      match d with
      | ⟨0, _⟩ =>
        show (dot_S5000x12_S12x64_S5000x64_1_0_0_1_n_n.lhsIdx (ix2 p q) _ 0).val = p.val
        unfold DotDims.lhsIdx
        rw [dif_neg (show ¬(0 : Fin S5000x12.rank) ∈ dot_S5000x12_S12x64_S5000x64_1_0_0_1_n_n.lhsBatch by decide), dif_pos (show (0 : Fin S5000x12.rank) ∈ dot_S5000x12_S12x64_S5000x64_1_0_0_1_n_n.lhsNonContracting by decide)]
        rfl
      | ⟨1, _⟩ => exact (dot_S5000x12_S12x64_S5000x64_1_0_0_1_n_n.lhsIdx_val_of_single rfl _ _).trans hk)
  have er : dot_S5000x12_S12x64_S5000x64_1_0_0_1_n_n.rhsIdx (ix2 p q) ((contrEquiv1 dot_S5000x12_S12x64_S5000x64_1_0_0_1_n_n 12 rfl rfl).symm k) = ix2 k q :=
    funext fun d => Fin.ext (by
      match d with
      | ⟨0, _⟩ => exact (dot_S5000x12_S12x64_S5000x64_1_0_0_1_n_n.rhsIdx_val_of_single rfl _ _).trans hk
      | ⟨1, _⟩ =>
        show (dot_S5000x12_S12x64_S5000x64_1_0_0_1_n_n.rhsIdx (ix2 p q) _ 1).val = q.val
        unfold DotDims.rhsIdx
        rw [dif_neg (show ¬(1 : Fin S12x64.rank) ∈ dot_S5000x12_S12x64_S5000x64_1_0_0_1_n_n.rhsBatch by decide), dif_pos (show (1 : Fin S12x64.rank) ∈ dot_S5000x12_S12x64_S5000x64_1_0_0_1_n_n.rhsNonContracting by decide)]
        rfl)
  rw [el, er]

/-- The first kernel's stored value on a block is the first layer's function of the block's operands. -/
theorem k0_pay1_eq (v0 v3 : Vec Ideal S5000x12 .f32) (v5 v8 : Vec Ideal S12x64 .f32) (v14 : Vec Ideal S1x64 .f32) :
    k0_pay1 (F := Ideal) v0 v3 v5 v8 v14 = hidden v0 v3 v5 v8 (fun q => v14 (ix2 (0 : Fin 1) q)) := by
  funext j
  obtain ⟨p, q, rfl⟩ : ∃ (p : Fin 5000) (q : Fin 64), j = ix2 p q := ⟨j 0, j 1, eq_ix2 j⟩
  rw [hidden_apply]
  unfold k0_pay1 pre
  rw [maximumf_apply, addf_apply, addf_apply, matmul0_apply, matmul0_apply, Rank2.bcastRow_apply, broadcast_apply]
  simp only [truncf_apply, shapeCast_self]
  rfl

end Cert.KernelIdeal.SageBody

end
-- ==== Proof.SpecRows.lean ====
/-
  The two layers depend on their operands only through the rows and columns they read.

  Entry (p, q) of the first layer reads row p of the neighbour averages and of the features, column q of the two
  weight matrices and entry q of the bias.  Entry (p, i) of the second layer reads row p of its two row operands, the
  whole of both weight matrices and of the bias, and row i of the hierarchy matrix.  So two sets of operands that
  agree on those rows and columns — for instance a block of rows of a kernel against the same rows of the whole
  array, at a shifted row index — give the same entry.
-/
import proofs.«181247_j57294863729409_2_alg».proof.Proof.Spec

noncomputable section

namespace Cert.Sage

open Idealize.ShloMosaic Idealize.ShloMosaic.ValueIdx

theorem pre_congr {n n' k o : Nat} (A X : (⟨2, ![n, k]⟩ : Shape).Idx → EReal) (A' X' : (⟨2, ![n', k]⟩ : Shape).Idx → EReal)
    (P Q P' Q' : (⟨2, ![k, o]⟩ : Shape).Idx → EReal) (β β' : Fin o → EReal) (p : Fin n) (p' : Fin n') (q : Fin o)
    (hA : ∀ j, A (ix2 p j) = A' (ix2 p' j)) (hX : ∀ j, X (ix2 p j) = X' (ix2 p' j))
    (hP : ∀ j, P (ix2 j q) = P' (ix2 j q)) (hQ : ∀ j, Q (ix2 j q) = Q' (ix2 j q)) (hβ : β q = β' q) :
    pre A X P Q β p q = pre A' X' P' Q' β' p' q := by
  unfold pre
  rw [hβ]
  simp only [hA, hX, hP, hQ]

theorem hidden_congr {n n' k o : Nat} (A X : (⟨2, ![n, k]⟩ : Shape).Idx → EReal) (A' X' : (⟨2, ![n', k]⟩ : Shape).Idx → EReal)
    (P Q P' Q' : (⟨2, ![k, o]⟩ : Shape).Idx → EReal) (β β' : Fin o → EReal) (p : Fin n) (p' : Fin n') (q : Fin o)
    (hA : ∀ j, A (ix2 p j) = A' (ix2 p' j)) (hX : ∀ j, X (ix2 p j) = X' (ix2 p' j))
    (hP : ∀ j, P (ix2 j q) = P' (ix2 j q)) (hQ : ∀ j, Q (ix2 j q) = Q' (ix2 j q)) (hβ : β q = β' q) :
    hidden A X P Q β (ix2 p q) = hidden A' X' P' Q' β' (ix2 p' q) := by
  rw [hidden_apply, hidden_apply, pre_congr A X A' X' P Q P' Q' β β' p p' q hA hX hP hQ hβ]

theorem constrained_congr {n n' k o : Nat} (A H : (⟨2, ![n, k]⟩ : Shape).Idx → EReal) (A' H' : (⟨2, ![n', k]⟩ : Shape).Idx → EReal)
    (P Q P' Q' : (⟨2, ![k, o]⟩ : Shape).Idx → EReal) (β β' : Fin o → EReal) (R R' : (⟨2, ![o, o]⟩ : Shape).Idx → EReal)
    (p : Fin n) (p' : Fin n') (i : Fin o)
    (hA : ∀ j, A (ix2 p j) = A' (ix2 p' j)) (hH : ∀ j, H (ix2 p j) = H' (ix2 p' j))
    (hP : ∀ j q, P (ix2 j q) = P' (ix2 j q)) (hQ : ∀ j q, Q (ix2 j q) = Q' (ix2 j q)) (hβ : ∀ q, β q = β' q)
    (hR : ∀ j, R (ix2 i j) = R' (ix2 i j)) :
    constrained A H P Q β R (ix2 p i) = constrained A' H' P' Q' β' R' (ix2 p' i) := by
  rw [constrained_apply, constrained_apply]
  refine congrArg (fun f => Finset.fold max (Ideal.ofBits .f32 0xFF800000#32) f (Finset.univ : Finset (Fin o))) (funext fun j => ?_)
  rw [hR j, pre_congr A H A' H' P Q P' Q' β β' p p' j hA hH (fun l => hP l j) (fun l => hQ l j) (hβ j)]

end Cert.Sage

end
-- ==== Proof.Region0.lean ====
/-
  What the first kernel leaves in its output array, as one function of the arrays it finds on entry.

  The grid has twenty points; point t works on rows 5000·t … 5000·t + 4999.  Its two row operands are staged block
  by block (block t of each is exactly those rows), the two weight matrices and the bias row are staged whole, and
  the result block is written back to the same rows of the output.  Since entry (p, q) of the first layer reads only
  row p of the row operands, the block a point writes back is that block of the first layer's function of the WHOLE
  arrays.  Every row of the output lies in exactly one point's block (the point 5000 divides it into), so after the
  last point the output array is the first layer's function of the entry arrays, everywhere.

  All of this is stated for ANY entry contents of the buffers, since the same kernel is entered after different host
  operations.
-/
import proofs.«181247_j57294863729409_2_alg».proof.Proof.Gen.KernelIdeal.Frame
import proofs.«181247_j57294863729409_2_alg».proof.Proof.Body0
import proofs.«181247_j57294863729409_2_alg».proof.Proof.SpecRows
import Idealize.ShloMosaic.Lib.Pipeline.Value

set_option maxRecDepth 16384

noncomputable section

namespace Cert.KernelIdeal.SageValue

open Cert.KernelIdeal Cert.KernelIdeal.Gen Cert.Sage Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem offs2 : (![0, 0] : Fin 2 → Nat) = fun _ => 0 := funext fun a => by fin_cases a <;> rfl

/-- The first layer's function of the arrays the first kernel finds on entry. -/
def layer1 (c : Dev nD) : S100000x64.Idx → EReal :=
  hidden (n := 100000) (k := 12) (o := 64) (V c main_v24) (V c main_arg0) (V c main_v25) (V c main_v26)
    (fun q => V c main_v27 (ix2 (0 : Fin 1) q))

/-- The printed block indices over the grid: the row operands and the output move with the point along the rows;
    the weights and the bias stay at their one block. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` of the neighbour averages is row 5000·t + p of the array. -/
theorem rowsA0 (c : Dev nD) (t : Fin cfg0.N) (p : Fin 5000) (p' : Fin 100000) (hp : p'.val = t.val * 5000 + p.val) (j : Fin 12) :
    iblk0 V c 0 t (ix2 p j) = V c main_v24 (ix2 p' j) := by
  show V c main_v24 (((cfg0.win 0).blk t).view.emb (ix2 p j)) = V c main_v24 (ix2 p' j)
  refine congrArg (V c main_v24) (funext fun a => Fin.ext ?_)
  obtain ⟨e0, e1, -⟩ := blockIdx0 t
  match a with
  | ⟨0, _⟩ => show win0_0.index t (0 : Fin 2) * 5000 + 1 * p.val = p'.val; omega
  | ⟨1, _⟩ => show win0_0.index t (1 : Fin 2) * 12 + 1 * j.val = j.val; omega

/-- Row `p` of block `t` of the node features is row 5000·t + p of the array. -/
theorem rowsX0 (c : Dev nD) (t : Fin cfg0.N) (p : Fin 5000) (p' : Fin 100000) (hp : p'.val = t.val * 5000 + p.val) (j : Fin 12) :
    iblk0 V c 1 t (ix2 p j) = V c main_arg0 (ix2 p' j) := by
  show V c main_arg0 (((cfg0.win 1).blk t).view.emb (ix2 p j)) = V c main_arg0 (ix2 p' j)
  refine congrArg (V c main_arg0) (funext fun a => Fin.ext ?_)
  obtain ⟨-, -, e0, e1, -⟩ := blockIdx0 t
  match a with
  | ⟨0, _⟩ => show win0_1.index t (0 : Fin 2) * 5000 + 1 * p.val = p'.val; omega
  | ⟨1, _⟩ => show win0_1.index t (1 : Fin 2) * 12 + 1 * j.val = j.val; omega

/-- The staged weight matrices and bias row are the whole arrays. -/
theorem wholeP0 (c : Dev nD) (t : Fin cfg0.N) (j : Fin 12) (q : Fin 64) : iblk0 V c 2 t (ix2 j q) = V c main_v25 (ix2 j q) := by
  show V c main_v25 (((cfg0.win 2).blk t).view.emb (ix2 j q)) = V c main_v25 (ix2 j q)
  refine congrArg (V c main_v25) (funext fun a => Fin.ext ?_)
  obtain ⟨-, -, -, -, e0, e1, -⟩ := blockIdx0 t
  match a with
  | ⟨0, _⟩ => show win0_2.index t (0 : Fin 2) * 12 + 1 * j.val = j.val; omega
  | ⟨1, _⟩ => show win0_2.index t (1 : Fin 2) * 64 + 1 * q.val = q.val; omega

theorem wholeQ0 (c : Dev nD) (t : Fin cfg0.N) (j : Fin 12) (q : Fin 64) : iblk0 V c 3 t (ix2 j q) = V c main_v26 (ix2 j q) := by
  show V c main_v26 (((cfg0.win 3).blk t).view.emb (ix2 j q)) = V c main_v26 (ix2 j q)
  refine congrArg (V c main_v26) (funext fun a => Fin.ext ?_)
  obtain ⟨-, -, -, -, -, -, e0, e1, -⟩ := blockIdx0 t
  match a with
  | ⟨0, _⟩ => show win0_3.index t (0 : Fin 2) * 12 + 1 * j.val = j.val; omega
  | ⟨1, _⟩ => show win0_3.index t (1 : Fin 2) * 64 + 1 * q.val = q.val; omega

theorem wholeB0 (c : Dev nD) (t : Fin cfg0.N) (z : Fin 1) (q : Fin 64) : iblk0 V c 4 t (ix2 z q) = V c main_v27 (ix2 z q) := by
  show V c main_v27 (((cfg0.win 4).blk t).view.emb (ix2 z q)) = V c main_v27 (ix2 z q)
  refine congrArg (V c main_v27) (funext fun a => Fin.ext ?_)
  obtain ⟨-, -, -, -, -, -, -, -, e0, e1, -⟩ := blockIdx0 t
  match a with
  | ⟨0, _⟩ => show win0_4.index t (0 : Fin 2) * 1 + 1 * z.val = z.val; omega
  | ⟨1, _⟩ => show win0_4.index t (1 : Fin 2) * 64 + 1 * q.val = q.val; omega

/-- WHAT POINT `t` WRITES BACK is block `t` of the first layer's function of the entry arrays. -/
theorem flushed0 (c : Dev nD) (t : Fin cfg0.N) :
    (dat0 V c).flushed 5 t = ((cfg0.win 5).blk t).view.read (Elt Ideal) (layer1 V c) := by
  show (cfg0.win 5).cut (grid0.coords t) ((dat0 V c).after 5 t) = _
  rw [after0_5]
  unfold out0_5
  rw [View.canon_unit_zero offs2]
  simp only [View.ld_unit_zero (S := S5000x12) offs2, View.ld_unit_zero (S := S12x64) offs2, View.ld_unit_zero (S := S1x64) offs2]
  rw [SageBody.k0_pay1_eq]
  funext y
  obtain ⟨p, q, rfl⟩ : ∃ (p : Fin 5000) (q : Fin 64), y = ix2 p q := ⟨y 0, y 1, eq_ix2 y⟩
  have ht : t.val < 20 := Nat.lt_of_lt_of_eq t.isLt N_0
  obtain ⟨-, -, -, -, -, -, -, -, -, -, e0, e1⟩ := blockIdx0 t
  have hemb : ((cfg0.win 5).blk t).view.emb (ix2 p q) = ix2 (⟨t.val * 5000 + p.val, by have := p.isLt; omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show hidden (iblk0 V c 0 t) (iblk0 V c 1 t) (iblk0 V c 2 t) (iblk0 V c 3 t) (fun q => iblk0 V c 4 t (ix2 (0 : Fin 1) q)) (ix2 p q)
    = layer1 V c (((cfg0.win 5).blk t).view.emb (ix2 p q))
  rw [hemb]
  unfold layer1
  exact hidden_congr _ _ _ _ _ _ _ _ _ _ p _ q (fun j => rowsA0 V c t p _ rfl j) (fun j => rowsX0 V c t p _ rfl j)
    (fun j => wholeP0 V c t j q) (fun j => wholeQ0 V c t j q) (wholeB0 V c t 0 q)

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Every index of the output array is in the block of the point that 5000 divides its row into. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk0]
  obtain ⟨-, -, -, -, -, -, -, -, -, -, e0, e1⟩ := blockIdx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- THE OUTPUT ARRAY after the first kernel: the first layer's function of the entry arrays. -/
theorem final0 (c : Dev nD) : (dat0 V c).arrAt 5 cfg0.N = layer1 V c :=
  (dat0 V c).arrAt_eq_of_cover 5 (layer1 V c) (fun t _ => flushed0 V c t) (cover0)

end Cert.KernelIdeal.SageValue

end
-- ==== Proof.Body1.lean ====
/-
  The second kernel's arithmetic on one block of 2000 rows.

  On a block the kernel multiplies the block of neighbour averages by one weight matrix and the block of hidden
  features by the other (both products accumulate from zero, and rounding the operands to a narrower format changes
  nothing on the extended reals), adds the two products and the bias row broadcast down the rows, and applies the
  logistic function entry by entry: out[n, j] = logistic (Σ_m A[n, m] · P[m, j] + Σ_m H[n, m] · Q[m, j] + b[0, j]).
  It then views out as [2000, 1, 13] and the constraint matrix R as [1, 13, 13], broadcasts both to [2000, 13, 13]
  and multiplies them, so that entry (n, i, j) of the product is out[n, j] · R[i, j], and takes the maximum over the
  last axis starting from −∞.  Entry (n, i) of the stored block is therefore

      max over j, from −∞, of  logistic (pre n j) · R[i, j],

  which is the second layer's function of the block's operands.
-/
import proofs.«181247_j57294863729409_2_alg».proof.Proof.Gen.KernelIdeal.Skeleton
import proofs.«181247_j57294863729409_2_alg».proof.Proof.Spec
import proofs.«181247_j57294863729409_2_alg».proof.Proof.LibRank2Layout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.SageBody

open Cert.KernelIdeal Cert.KernelIdeal.Gen Cert.Sage Idealize.ShloMosaic Idealize.ShloMosaic.ValueIdx

/-- Row `p` of a [2000, 64] block times column `q` of a [64, 13] matrix, accumulated from zero: the sum over the
    sixty-four shared coordinates of the products. -/
theorem matmul1_apply (a : FVec Ideal S2000x64 .bf16) (w : FVec Ideal S64x13 .bf16) (p : Fin 2000) (q : Fin 13) :
    matmul dot_S2000x64_S64x13_S2000x13_1_0_0_1_n_n none a w (constant (F := Ideal) S2000x13 .f32 0x00000000#32) (ix2 p q)
      = ∑ k : Fin 64, a (ix2 p k) * w (ix2 k q) := by
  simp only [matmul]
  rw [Ideal.matmul_constant_zero_apply, ← Equiv.sum_comp (contrEquiv1 dot_S2000x64_S64x13_S2000x13_1_0_0_1_n_n 64 rfl rfl).symm]
  refine Finset.sum_congr rfl fun k _ => ?_
  have hk := contrEquiv1_symm_val dot_S2000x64_S64x13_S2000x13_1_0_0_1_n_n 64 rfl rfl k
  have el : dot_S2000x64_S64x13_S2000x13_1_0_0_1_n_n.lhsIdx (ix2 p q) ((contrEquiv1 dot_S2000x64_S64x13_S2000x13_1_0_0_1_n_n 64 rfl rfl).symm k) = ix2 p k :=
    funext fun d => Fin.ext (by
      match d with
      | ⟨0, _⟩ =>
        show (dot_S2000x64_S64x13_S2000x13_1_0_0_1_n_n.lhsIdx (ix2 p q) _ 0).val = p.val
        unfold DotDims.lhsIdx
        rw [dif_neg (show ¬(0 : Fin S2000x64.rank) ∈ dot_S2000x64_S64x13_S2000x13_1_0_0_1_n_n.lhsBatch by decide), dif_pos (show (0 : Fin S2000x64.rank) ∈ dot_S2000x64_S64x13_S2000x13_1_0_0_1_n_n.lhsNonContracting by decide)]
        rfl
      | ⟨1, _⟩ => exact (dot_S2000x64_S64x13_S2000x13_1_0_0_1_n_n.lhsIdx_val_of_single rfl _ _).trans hk)
  have er : dot_S2000x64_S64x13_S2000x13_1_0_0_1_n_n.rhsIdx (ix2 p q) ((contrEquiv1 dot_S2000x64_S64x13_S2000x13_1_0_0_1_n_n 64 rfl rfl).symm k) = ix2 k q :=
    funext fun d => Fin.ext (by
      match d with
      | ⟨0, _⟩ => exact (dot_S2000x64_S64x13_S2000x13_1_0_0_1_n_n.rhsIdx_val_of_single rfl _ _).trans hk
      | ⟨1, _⟩ =>
        show (dot_S2000x64_S64x13_S2000x13_1_0_0_1_n_n.rhsIdx (ix2 p q) _ 1).val = q.val
        unfold DotDims.rhsIdx
        rw [dif_neg (show ¬(1 : Fin S64x13.rank) ∈ dot_S2000x64_S64x13_S2000x13_1_0_0_1_n_n.rhsBatch by decide), dif_pos (show (1 : Fin S64x13.rank) ∈ dot_S2000x64_S64x13_S2000x13_1_0_0_1_n_n.rhsNonContracting by decide)]
        rfl)
  rw [el, er]

/-- The reduced index (p, i) with the coordinate `k` put back on the last axis is (p, i, k). -/
theorem lift_ix3 {a b c : Nat} (h : (⟨3, ![a, b, c]⟩ : Shape).Reduces [2] (⟨2, ![a, b]⟩ : Shape)) (p : Fin a) (i : Fin b)
    (k : Fin ((⟨3, ![a, b, c]⟩ : Shape).size 2)) : h.lift (ix2 p i) k = ix3 p i (⟨k.val, k.isLt⟩ : Fin c) := by
  funext d; apply Fin.ext
  fin_cases d <;> rfl

section Layout
variable {α : Type}

/-- An [a, b] array viewed as [a, 1, b] reads, at (p, u, k), the array at (p, k): both have row-major position b·p + k. -/
theorem shapeCast_ab_a1b_apply {a b : Nat} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An [a, 1, c] array broadcast along its middle axis to [a, b, c] reads, at (p, i, k), the array at (p, 0, k). -/
theorem bcastMid_apply {a b c : Nat} (v : (⟨3, ![a, 1, c]⟩ : Shape).Idx → α)
    (h : (⟨3, ![a, 1, c]⟩ : Shape).Broadcasts ⟨3, ![a, b, c]⟩) (p : Fin a) (i : Fin b) (k : Fin c) :
    broadcastTo (⟨3, ![a, b, c]⟩ : Shape) v h (ix3 p i k) = v (ix3 p (0 : Fin 1) k) :=
  broadcastTo_apply v h (ix3 p i k) (ix3 p (0 : Fin 1) k) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else i.val; rw [if_pos rfl]
    | ⟨2, _⟩ => by
        show k.val = if c = 1 then 0 else k.val
        by_cases hc : c = 1
        · rw [if_pos hc]; have := k.isLt; omega
        · rw [if_neg hc])

/-- A [1, b, c] array broadcast along its first axis to [a, b, c] reads, at (p, i, k), the array at (0, i, k). -/
theorem bcastLead_apply {a b c : Nat} (v : (⟨3, ![1, b, c]⟩ : Shape).Idx → α)
    (h : (⟨3, ![1, b, c]⟩ : Shape).Broadcasts ⟨3, ![a, b, c]⟩) (p : Fin a) (i : Fin b) (k : Fin c) :
    broadcastTo (⟨3, ![a, b, c]⟩ : Shape) v h (ix3 p i k) = v (ix3 (0 : Fin 1) i k) :=
  broadcastTo_apply v h (ix3 p i k) (ix3 (0 : Fin 1) i k) (fun d => match d with
    | ⟨0, _⟩ => by show 0 = if (1 : Nat) = 1 then 0 else p.val; rw [if_pos rfl]
    | ⟨1, _⟩ => by
        show i.val = if b = 1 then 0 else i.val
        by_cases hb : b = 1
        · rw [if_pos hb]; have := i.isLt; omega
        · rw [if_neg hb]
    | ⟨2, _⟩ => by
        show k.val = if c = 1 then 0 else k.val
        by_cases hc : c = 1
        · rw [if_pos hc]; have := k.isLt; omega
        · rw [if_neg hc])

end Layout

/-- Entry (p, i, k) of the product of the two broadcasts is out[p, k] · R[i, k]. -/
theorem prod_apply (out : FVec Ideal S2000x13 .f32) (R : FVec Ideal S13x13 .f32) (p : Fin 2000) (i k : Fin 13) :
    mulf (broadcastTo S2000x13x13 (shapeCast S2000x1x13 out shapeCasts_S2000x13_S2000x1x13) broadcasts_S2000x1x13_S2000x13x13)
        (broadcastTo S2000x13x13 (shapeCast S1x13x13 R shapeCasts_S13x13_S1x13x13) broadcasts_S1x13x13_S2000x13x13) (ix3 p i k)
      = out (ix2 p k) * R (ix2 i k) := by
  rw [mulf_apply, bcastMid_apply, bcastLead_apply, shapeCast_ab_a1b_apply, shapeCast_ab_1ab_apply]

/-- Entry (p, k) of the sum of the two products and the broadcast bias row is the layer's pre-activation there. -/
theorem pre1_apply (v0 v3 : Vec Ideal S2000x64 .f32) (v6 v9 : Vec Ideal S64x13 .f32) (v15 : Vec Ideal S1x13 .f32)
    (p : Fin 2000) (k : Fin 13) :
    addf (addf
        (matmul dot_S2000x64_S64x13_S2000x13_1_0_0_1_n_n none
          (truncf .bf16 (shapeCast S2000x64 v0 shapeCasts_S2000x64_S2000x64) bitsLt_bf16_f32)
          (truncf .bf16 (shapeCast S64x13 v6 shapeCasts_S64x13_S64x13) bitsLt_bf16_f32)
          (constant (F := Ideal) S2000x13 .f32 0x00000000#32))
        (matmul dot_S2000x64_S64x13_S2000x13_1_0_0_1_n_n none
          (truncf .bf16 (shapeCast S2000x64 v3 shapeCasts_S2000x64_S2000x64) bitsLt_bf16_f32)
          (truncf .bf16 (shapeCast S64x13 v9 shapeCasts_S64x13_S64x13) bitsLt_bf16_f32)
          (constant (F := Ideal) S2000x13 .f32 0x00000000#32)))
        (broadcastTo S2000x13 (shapeCast S1x13 v15 shapeCasts_S1x13_S1x13) broadcasts_S1x13_S2000x13) (ix2 p k)
      = pre v0 v3 v6 v9 (fun q => v15 (ix2 (0 : Fin 1) q)) p k := by
  unfold pre
  rw [addf_apply, addf_apply, matmul1_apply, matmul1_apply, Rank2.bcastRow_apply]
  simp only [truncf_apply, shapeCast_self]

/-- The second kernel's stored value on a block is `constrained` of the block's operands. -/
theorem k1_pay1_eq (v0 v3 : Vec Ideal S2000x64 .f32) (v6 v9 : Vec Ideal S64x13 .f32) (v15 : Vec Ideal S1x13 .f32)
    (v20 : Vec Ideal S13x13 .f32) :
    k1_pay1 (F := Ideal) v0 v3 v6 v9 v15 v20 = constrained v0 v3 v6 v9 (fun q => v15 (ix2 (0 : Fin 1) q)) v20 := by
  funext j
  obtain ⟨p, i, rfl⟩ : ∃ (p : Fin 2000) (i : Fin 13), j = ix2 p i := ⟨j 0, j 1, eq_ix2 j⟩
  rw [constrained_apply]
  unfold k1_pay1
  refine (Ideal.multiReduction_maximumf_single _ _ reduces_S2000x13x13_S2000x13 _ _ (ix2 p i)).trans ?_
  refine congrArg (fun f => Finset.fold max (Ideal.ofBits .f32 0xFF800000#32) f (Finset.univ : Finset (Fin 13))) (funext fun k => ?_)
  show _ = Ideal.logistic _ * _
  rw [Function.comp_apply, lift_ix3, prod_apply]
  show Ideal.logistic _ * _ = _
  rw [pre1_apply]
  rfl

end Cert.KernelIdeal.SageBody

end
-- ==== Proof.Region1.lean ====
/-
  What the second kernel leaves in its output array, as one function of the arrays it finds on entry.

  The grid has fifty points; point t works on rows 2000·t … 2000·t + 1999.  The two row operands (the neighbour
  averages of the hidden features, and the hidden features) are staged block by block, the two weight matrices, the
  bias row and the hierarchy matrix are staged whole, and the result block is written back to the same rows of the
  output.  Entry (p, i) of the second layer reads only row p of the row operands, so the block a point writes back is
  that block of the second layer's function of the WHOLE arrays; every row lies in exactly one point's block, so
  after the last point the output array is that function of the entry arrays, everywhere.

  Stated for ANY entry contents of the buffers.
-/
import proofs.«181247_j57294863729409_2_alg».proof.Proof.Gen.KernelIdeal.Frame
import proofs.«181247_j57294863729409_2_alg».proof.Proof.Body1
import proofs.«181247_j57294863729409_2_alg».proof.Proof.SpecRows
import Idealize.ShloMosaic.Lib.Pipeline.Value

set_option maxRecDepth 16384

noncomputable section

namespace Cert.KernelIdeal.SageValue

open Cert.KernelIdeal Cert.KernelIdeal.Gen Cert.Sage Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem offs2' : (![0, 0] : Fin 2 → Nat) = fun _ => 0 := funext fun a => by fin_cases a <;> rfl

/-- The second layer's function of the arrays the second kernel finds on entry. -/
def layer2 (c : Dev nD) : S100000x13.Idx → EReal :=
  constrained (n := 100000) (k := 64) (o := 13) (V c main_v40) (V c main_v28) (V c main_v41) (V c main_v42)
    (fun q => V c main_v43 (ix2 (0 : Fin 1) q)) (V c main_arg8)

/-- The printed block indices over the grid: the row operands and the output move with the point along the rows;
    the weights, the bias and the hierarchy matrix stay at their one block. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` of the neighbour averages is row 2000·t + p of the array. -/
theorem rowsA1 (c : Dev nD) (t : Fin cfg1.N) (p : Fin 2000) (p' : Fin 100000) (hp : p'.val = t.val * 2000 + p.val) (j : Fin 64) :
    iblk1 V c 0 t (ix2 p j) = V c main_v40 (ix2 p' j) := by
  show V c main_v40 (((cfg1.win 0).blk t).view.emb (ix2 p j)) = V c main_v40 (ix2 p' j)
  refine congrArg (V c main_v40) (funext fun a => Fin.ext ?_)
  obtain ⟨e0, e1, -⟩ := blockIdx1 t
  match a with
  | ⟨0, _⟩ => show win1_0.index t (0 : Fin 2) * 2000 + 1 * p.val = p'.val; omega
  | ⟨1, _⟩ => show win1_0.index t (1 : Fin 2) * 64 + 1 * j.val = j.val; omega

/-- Row `p` of block `t` of the hidden features is row 2000·t + p of the array. -/
theorem rowsH1 (c : Dev nD) (t : Fin cfg1.N) (p : Fin 2000) (p' : Fin 100000) (hp : p'.val = t.val * 2000 + p.val) (j : Fin 64) :
    iblk1 V c 1 t (ix2 p j) = V c main_v28 (ix2 p' j) := by
  show V c main_v28 (((cfg1.win 1).blk t).view.emb (ix2 p j)) = V c main_v28 (ix2 p' j)
  refine congrArg (V c main_v28) (funext fun a => Fin.ext ?_)
  obtain ⟨-, -, e0, e1, -⟩ := blockIdx1 t
  match a with
  | ⟨0, _⟩ => show win1_1.index t (0 : Fin 2) * 2000 + 1 * p.val = p'.val; omega
  | ⟨1, _⟩ => show win1_1.index t (1 : Fin 2) * 64 + 1 * j.val = j.val; omega

/-- The staged weight matrices, bias row and hierarchy matrix are the whole arrays. -/
theorem wholeP1 (c : Dev nD) (t : Fin cfg1.N) (j : Fin 64) (q : Fin 13) : iblk1 V c 2 t (ix2 j q) = V c main_v41 (ix2 j q) := by
  show V c main_v41 (((cfg1.win 2).blk t).view.emb (ix2 j q)) = V c main_v41 (ix2 j q)
  refine congrArg (V c main_v41) (funext fun a => Fin.ext ?_)
  obtain ⟨-, -, -, -, e0, e1, -⟩ := blockIdx1 t
  match a with
  | ⟨0, _⟩ => show win1_2.index t (0 : Fin 2) * 64 + 1 * j.val = j.val; omega
  | ⟨1, _⟩ => show win1_2.index t (1 : Fin 2) * 13 + 1 * q.val = q.val; omega

theorem wholeQ1 (c : Dev nD) (t : Fin cfg1.N) (j : Fin 64) (q : Fin 13) : iblk1 V c 3 t (ix2 j q) = V c main_v42 (ix2 j q) := by
  show V c main_v42 (((cfg1.win 3).blk t).view.emb (ix2 j q)) = V c main_v42 (ix2 j q)
  refine congrArg (V c main_v42) (funext fun a => Fin.ext ?_)
  obtain ⟨-, -, -, -, -, -, e0, e1, -⟩ := blockIdx1 t
  match a with
  | ⟨0, _⟩ => show win1_3.index t (0 : Fin 2) * 64 + 1 * j.val = j.val; omega
  | ⟨1, _⟩ => show win1_3.index t (1 : Fin 2) * 13 + 1 * q.val = q.val; omega

theorem wholeB1 (c : Dev nD) (t : Fin cfg1.N) (z : Fin 1) (q : Fin 13) : iblk1 V c 4 t (ix2 z q) = V c main_v43 (ix2 z q) := by
  show V c main_v43 (((cfg1.win 4).blk t).view.emb (ix2 z q)) = V c main_v43 (ix2 z q)
  refine congrArg (V c main_v43) (funext fun a => Fin.ext ?_)
  obtain ⟨-, -, -, -, -, -, -, -, e0, e1, -⟩ := blockIdx1 t
  match a with
  | ⟨0, _⟩ => show win1_4.index t (0 : Fin 2) * 1 + 1 * z.val = z.val; omega
  | ⟨1, _⟩ => show win1_4.index t (1 : Fin 2) * 13 + 1 * q.val = q.val; omega

theorem wholeR1 (c : Dev nD) (t : Fin cfg1.N) (i : Fin 13) (j : Fin 13) : iblk1 V c 5 t (ix2 i j) = V c main_arg8 (ix2 i j) := by
  show V c main_arg8 (((cfg1.win 5).blk t).view.emb (ix2 i j)) = V c main_arg8 (ix2 i j)
  refine congrArg (V c main_arg8) (funext fun a => Fin.ext ?_)
  obtain ⟨-, -, -, -, -, -, -, -, -, -, e0, e1, -⟩ := blockIdx1 t
  match a with
  | ⟨0, _⟩ => show win1_5.index t (0 : Fin 2) * 13 + 1 * i.val = i.val; omega
  | ⟨1, _⟩ => show win1_5.index t (1 : Fin 2) * 13 + 1 * j.val = j.val; omega

/-- WHAT POINT `t` WRITES BACK is block `t` of the second layer's function of the entry arrays. -/
theorem flushed1 (c : Dev nD) (t : Fin cfg1.N) :
    (dat1 V c).flushed 6 t = ((cfg1.win 6).blk t).view.read (Elt Ideal) (layer2 V c) := by
  show (cfg1.win 6).cut (grid1.coords t) ((dat1 V c).after 6 t) = _
  rw [after1_6]
  unfold out1_6
  rw [View.canon_unit_zero offs2']
  simp only [View.ld_unit_zero (S := S2000x64) offs2', View.ld_unit_zero (S := S64x13) offs2', View.ld_unit_zero (S := S1x13) offs2',
    View.ld_unit_zero (S := S13x13) offs2']
  rw [SageBody.k1_pay1_eq]
  funext y
  obtain ⟨p, i, rfl⟩ : ∃ (p : Fin 2000) (i : Fin 13), y = ix2 p i := ⟨y 0, y 1, eq_ix2 y⟩
  have ht : t.val < 50 := Nat.lt_of_lt_of_eq t.isLt N_1
  obtain ⟨-, -, -, -, -, -, -, -, -, -, -, -, e0, e1⟩ := blockIdx1 t
  have hemb : ((cfg1.win 6).blk t).view.emb (ix2 p i) = ix2 (⟨t.val * 2000 + p.val, by have := p.isLt; omega⟩ : Fin 100000) i := by
    funext a; apply Fin.ext
    match a with
    | ⟨0, _⟩ => show win1_6.index t (0 : Fin 2) * 2000 + 1 * p.val = t.val * 2000 + p.val; omega
    | ⟨1, _⟩ => show win1_6.index t (1 : Fin 2) * 13 + 1 * i.val = i.val; omega
  show constrained (iblk1 V c 0 t) (iblk1 V c 1 t) (iblk1 V c 2 t) (iblk1 V c 3 t) (fun q => iblk1 V c 4 t (ix2 (0 : Fin 1) q)) (iblk1 V c 5 t) (ix2 p i)
    = layer2 V c (((cfg1.win 6).blk t).view.emb (ix2 p i))
  rw [hemb]
  unfold layer2
  exact constrained_congr _ _ _ _ _ _ _ _ _ _ _ _ p _ i (fun j => rowsA1 V c t p _ rfl j) (fun j => rowsH1 V c t p _ rfl j)
    (fun j q => wholeP1 V c t j q) (fun j q => wholeQ1 V c t j q) (fun q => wholeB1 V c t 0 q) (fun j => wholeR1 V c t i j)

/-- An index of the output array is in point `t`'s block iff each coordinate is in the block's range on its axis. -/
theorem mem_blk1 (t : Fin cfg1.N) (i : S100000x13.Idx) :
    i ∈ ((cfg1.win 6).blk t).view.set ↔ ∀ a : Fin 2, win1_6.index t a * S2000x13.size a ≤ (i a).val ∧ (i a).val < win1_6.index t a * S2000x13.size a + S2000x13.size a := by
  show i ∈ ((View.whole main_v44).slice (win1_6.rect t)).set ↔ _
  rw [View.set_slice_whole, Rect.mem_set_unit]
  exact Iff.rfl

/-- Every index of the output array is in the block of the point that 2000 divides its row into. -/
theorem cover1 (i : S100000x13.Idx) : ∃ t : Fin cfg1.N, (cfg1.win 6).flush t = true ∧ i ∈ ((cfg1.win 6).blk t).view.set := by
  have hi0 : (i 0).val < 100000 := (i 0).isLt
  have hi1 : (i 1).val < 13 := (i 1).isLt
  have hN : cfg1.N = 50 := N_1
  refine ⟨⟨(i 0).val / 2000, by rw [hN]; omega⟩, flush1_6 _, ?_⟩
  rw [mem_blk1]
  obtain ⟨-, -, -, -, -, -, -, -, -, -, -, -, e0, e1⟩ := blockIdx1 ⟨(i 0).val / 2000, by rw [hN]; omega⟩
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 13 ≤ (i 1).val ∧ (i 1).val < win1_6.index _ (1 : Fin 2) * 13 + 13
    rw [e1]; omega

/-- THE OUTPUT ARRAY after the second kernel: the second layer's function of the entry arrays. -/
theorem final1 (c : Dev nD) : (dat1 V c).arrAt 6 cfg1.N = layer2 V c :=
  (dat1 V c).arrAt_eq_of_cover 6 (layer2 V c) (fun t _ => flushed1 V c t) (cover1)

end Cert.KernelIdeal.SageValue

end
-- ==== Proof.RefValue.lean ====
/-
  What the reference program computes in each of its two layers, entry by entry over the extended reals.

  Layer 1.  With A the neighbour average (the scatter-added gather divided by max(degree, 1)), X the node features,
  and the two weight matrices transposed to [k, o] layout, the reference forms A · P + X · Q, adds the bias along the
  rows, and clamps below at zero.  Read at node p and output feature q this is
      max (Σ_j A[p, j] · P[j, q] + Σ_j X[p, j] · Q[j, q] + β[q]) 0,
  which is the first-layer function of the specification applied to A, X, P, Q and β.

  Layer 2.  With A the neighbour average of the first layer's output H, the reference forms s = A · P + H · Q + β,
  then 1 / (1 + e^(−s)), which is the logistic function of s, then for each node p and each pair of classes (i, j) the
  product R[i, j] · logistic(s[p, j]), and takes over j the maximum from −∞.  Multiplication of extended reals is
  commutative, so at (p, i) this is the largest over j of logistic(s[p, j]) · R[i, j]: the second-layer function of
  the specification applied to A, H, P, Q, β and R.

  The neighbour averages themselves (gathers and scatter-adds, whose reads depend on the edge list) stay opaque here:
  each layer is stated as a function of its own aggregate.
-/
import proofs.«181247_j57294863729409_2_alg».proof.Proof.Gen.ReferenceIdeal.Read
import proofs.«181247_j57294863729409_2_alg».proof.Proof.Spec
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Sage Idealize.ShloMosaic Idealize.ShloMosaic.ValueIdx

/-- The first layer's aggregate is the scatter-added gather divided entry by entry by the broadcast degree. -/
theorem v22_eq (x0 : (⟨S100000x12, .f32⟩ : BufTy).Contents (Elt Ideal)) (x1 : (⟨S2x3200000, .i32⟩ : BufTy).Contents (Elt Ideal)) :
    val_main_v22 (F := Ideal) x0 x1 = Host.divf (F := Ideal) (s := S100000x12) (φ := .f32) (val_main_v13 (F := Ideal) x0 x1) (val_main_v21 (F := Ideal) x1) := by
  unfold val_main_v22
  generalize val_main_v13 (F := Ideal) x0 x1 = a
  generalize val_main_v21 (F := Ideal) x1 = b
  rfl

/-- The second layer's aggregate is the scatter-added gather divided entry by entry by the broadcast degree. -/
theorem v54_eq (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal)) :
    val_main_v54 (F := Ideal) x0 x1 x2 x3 x4
      = Host.divf (F := Ideal) (s := S100000x64) (φ := .f32) (val_main_v45 (F := Ideal) x0 x1 x2 x3 x4) (val_main_v53 (F := Ideal) x1) := by
  unfold val_main_v54
  generalize val_main_v45 (F := Ideal) x0 x1 x2 x3 x4 = a
  generalize val_main_v53 (F := Ideal) x1 = b
  rfl

/-- Layer 1 of the reference is `hidden` of its aggregate, the features and the transposed weights. -/
theorem layer1_eq (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal)) :
    val_main_v31 (F := Ideal) x0 x1 x2 x3 x4
      = hidden (n := 100000) (k := 12) (o := 64) (val_main_v22 (F := Ideal) x0 x1) x0 (val_main_v23 (F := Ideal) x2)
          (val_main_v25 (F := Ideal) x3) (fun q => x4 (ix1 q)) := by
  funext i
  obtain ⟨p, q, rfl⟩ : ∃ (p : Fin 100000) (q : Fin 64), i = ix2 p q := ⟨i 0, i 1, eq_ix2 i⟩
  rw [hidden_apply, val_main_v31_apply, val_main_v30_apply, val_main_v27_apply, val_main_v24_apply, val_main_v26_apply,
    val_main_v29_apply, val_main_v28_apply, val_main_call0_v0_apply, val_main_call0_cst_apply]
  generalize val_main_v22 (F := Ideal) x0 x1 = A
  generalize val_main_v23 (F := Ideal) x2 = P
  generalize val_main_v25 (F := Ideal) x3 = Q
  have el : ∀ k : Fin 12, lidx_main_v24 (ix2 p q) k = ix2 p k := fun k => funext fun a => Fin.ext (by
    match a with | ⟨0, _⟩ => rfl | ⟨1, _⟩ => rfl)
  have er : ∀ k : Fin 12, ridx_main_v24 (ix2 p q) k = ix2 k q := fun k => funext fun a => Fin.ext (by
    match a with | ⟨0, _⟩ => rfl | ⟨1, _⟩ => rfl)
  have el' : ∀ k : Fin 12, lidx_main_v26 (ix2 p q) k = ix2 p k := fun k => funext fun a => Fin.ext (by
    match a with | ⟨0, _⟩ => rfl | ⟨1, _⟩ => rfl)
  have er' : ∀ k : Fin 12, ridx_main_v26 (ix2 p q) k = ix2 k q := fun k => funext fun a => Fin.ext (by
    match a with | ⟨0, _⟩ => rfl | ⟨1, _⟩ => rfl)
  have eb : idx_main_v28 (idx_main_v29 (ix2 p q)) = ix1 q := funext fun a => Fin.ext (by
    match a with | ⟨0, _⟩ => rfl)
  simp only [el, er, el', er', eb, Ideal.addf_def, Ideal.maximumf_def, Ideal.ofBits_def]
  rfl

/-- The bit pattern of the constant one denotes the extended real 1. -/
private theorem one_bits : Ideal.ofBits .f32 0x3F800000#32 = 1 := by
  simp [Ideal.ofBits, Ideal.ieee, -EReal.coe_mul]; norm_num

/-- The source index over the reduced index (p, i) whose coordinate on the dropped last axis is k is (p, i, k). -/
private theorem lift_ix2 (h : S100000x13x13.Reduces [2] S100000x13) (p : Fin 100000) (i : Fin 13)
    (k : Fin (S100000x13x13.size 2)) : h.lift (ix2 p i) k = ix3 p i (⟨k.val, k.isLt⟩ : Fin 13) := by
  funext c; apply Fin.ext
  fin_cases c <;> rfl

/-- From −∞ the reduce with a maximum body over the last axis, at (p, i), is the maximum over j of the entries (p, i, j). -/
private theorem reduce_max_last (y : (⟨S100000x13x13, .f32⟩ : BufTy).Contents (Elt Ideal)) (p : Fin 100000) (i : Fin 13) :
    Host.reduce (FloatOps.maximumf (F := Ideal) (φ := .f32)) y (val_main_cst_12 (F := Ideal)) reducesTo_S100000x13x13_S100000x13_d2 h_S_ (ix2 p i)
      = (Finset.univ : Finset (Fin 13)).fold max (Ideal.ofBits .f32 0xFF800000#32) (fun j => y (ix3 p i j)) := by
  have h : S100000x13x13.Reduces [2] S100000x13 := by decide
  have e := Host.reduce_eq_fold_single (α := Ideal .f32) (FloatOps.maximumf (F := Ideal) (φ := .f32)) y (val_main_cst_12 (F := Ideal))
    reducesTo_S100000x13x13_S100000x13_d2 h h_S_ (ix2 p i)
  refine e.trans ?_
  have hf : (y ∘ h.lift (ix2 p i)) = fun k : Fin 13 => y (ix3 p i k) := funext fun k => congrArg y (lift_ix2 h p i k)
  exact congrArg (fun f => Finset.fold max (Ideal.ofBits .f32 0xFF800000#32) f (Finset.univ : Finset (Fin 13))) hf

/-- Layer 2 of the reference is `constrained` of its aggregate, layer 1's output, the transposed weights and R. -/
theorem layer2_eq (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (x5 x6 : (⟨S13x64, .f32⟩ : BufTy).Contents (Elt Ideal)) (x7 : (⟨S13, .f32⟩ : BufTy).Contents (Elt Ideal))
    (x8 : (⟨S13x13, .f32⟩ : BufTy).Contents (Elt Ideal)) :
    val_main_v74 (F := Ideal) x0 x1 x2 x3 x4 x5 x6 x7 x8
      = constrained (n := 100000) (k := 64) (o := 13) (val_main_v54 (F := Ideal) x0 x1 x2 x3 x4)
          (val_main_v31 (F := Ideal) x0 x1 x2 x3 x4) (val_main_v55 (F := Ideal) x5) (val_main_v57 (F := Ideal) x6)
          (fun q => x7 (ix1 q)) x8 := by
  funext i
  obtain ⟨p, c, rfl⟩ : ∃ (p : Fin 100000) (c : Fin 13), i = ix2 p c := ⟨i 0, i 1, eq_ix2 i⟩
  rw [constrained_apply]
  unfold val_main_v74
  refine (reduce_max_last _ p c).trans ?_
  refine congrArg (fun f => Finset.fold max (Ideal.ofBits .f32 0xFF800000#32) f (Finset.univ : Finset (Fin 13)))
    (funext fun j => ?_)
  rw [val_main_v73_apply, val_main_v71_apply, val_main_v69_apply, val_main_v72_apply, val_main_v70_apply,
    val_main_v68_apply, val_main_v67_apply, val_main_cst_11_apply, val_main_v66_apply, val_main_v65_apply,
    val_main_cst_10_apply, val_main_v64_apply, val_main_v63_apply, val_main_v62_apply, val_main_v59_apply,
    val_main_v56_apply, val_main_v58_apply, val_main_v61_apply, val_main_v60_apply]
  generalize val_main_v54 (F := Ideal) x0 x1 x2 x3 x4 = A
  generalize val_main_v31 (F := Ideal) x0 x1 x2 x3 x4 = H
  generalize val_main_v55 (F := Ideal) x5 = P
  generalize val_main_v57 (F := Ideal) x6 = Q
  have e69 : idx_main_v69 (idx_main_v71 (ix3 p c j)) = ix2 c j := funext fun a => Fin.ext (by
    match a with | ⟨0, _⟩ => rfl | ⟨1, _⟩ => rfl)
  have e70 : idx_main_v70 (idx_main_v72 (ix3 p c j)) = ix2 p j := funext fun a => Fin.ext (by
    match a with | ⟨0, _⟩ => rfl | ⟨1, _⟩ => rfl)
  have el : ∀ k : Fin 64, lidx_main_v56 (ix2 p j) k = ix2 p k := fun k => funext fun a => Fin.ext (by
    match a with | ⟨0, _⟩ => rfl | ⟨1, _⟩ => rfl)
  have er : ∀ k : Fin 64, ridx_main_v56 (ix2 p j) k = ix2 k j := fun k => funext fun a => Fin.ext (by
    match a with | ⟨0, _⟩ => rfl | ⟨1, _⟩ => rfl)
  have el' : ∀ k : Fin 64, lidx_main_v58 (ix2 p j) k = ix2 p k := fun k => funext fun a => Fin.ext (by
    match a with | ⟨0, _⟩ => rfl | ⟨1, _⟩ => rfl)
  have er' : ∀ k : Fin 64, ridx_main_v58 (ix2 p j) k = ix2 k j := fun k => funext fun a => Fin.ext (by
    match a with | ⟨0, _⟩ => rfl | ⟨1, _⟩ => rfl)
  have eb : idx_main_v60 (idx_main_v61 (ix2 p j)) = ix1 j := funext fun a => Fin.ext (by
    match a with | ⟨0, _⟩ => rfl)
  rw [e69, e70]
  simp only [el, er, el', er', eb, Ideal.mulf_def, Ideal.hostDivf_def, Ideal.addf_def, Ideal.hostUnary_exp_def,
    Ideal.hostNegf_def, Ideal.negf_def, Ideal.ofBits_def]
  rw [one_bits, logistic_spelt, mul_comm]
  rfl

end Cert.ReferenceIdeal.RefValue

end
-- ==== Proof.LibIdealRecip.lean ====
/-
  Dividing by c against multiplying by the reciprocal 1 / c, on the extended reals.

  The quotient x / c is x · c⁻¹ whenever c ≠ 0, where the inverse of either infinity is 0. So for EVERY extended real
  a — finite or not — and every c ≠ 0 — finite or not — a · (1 / c) = a · (1 · c⁻¹) = a · c⁻¹ = a / c. No finiteness
  of a is needed, because the law only re-associates a product with the factor 1. In particular it holds for
  c = max x 1, which is at least 1 and therefore never zero, whatever x is.

  The array form: an array scaled entry by entry by a broadcast reciprocal is the array divided entry by entry by the
  broadcast divisor, for any broadcast that reads its operand at an index computed from the result's index.
-/
import Idealize.ShloMosaic.PureOps.Ideal
import Idealize.ShloMosaic.Lib.ValueIdx

namespace Idealize.ShloMosaic.IdealRecip

open Idealize.ShloMosaic

/-- a · (1 / c) = a / c for every extended real a, whenever c ≠ 0 (c = ±∞ included: both sides are a · 0). -/
theorem mul_div_one (a c : EReal) (hc : c ≠ 0) : a * Ideal.div 1 c = Ideal.div a c := by
  unfold Ideal.div
  rw [if_neg hc, if_neg hc, one_mul]

/-- max x 1 is at least 1, so it is not zero, for every extended real x. -/
theorem max_one_ne_zero (x : EReal) : max x 1 ≠ 0 := by
  have h01 : (0 : EReal) < 1 := by exact_mod_cast (zero_lt_one : (0 : ℝ) < 1)
  exact ne_of_gt (lt_of_lt_of_le h01 (le_max_right x 1))

/-- An array times a broadcast reciprocal is the array over the broadcast divisor. `sp` is any broadcast that reads
    its operand at `g i`; `u` is an all-ones array; `c` has no zero entry. -/
theorem mulf_recip_eq_divf {s t : Shape} {φ : FTy} (A : FVec Ideal s φ) (c u : FVec Ideal t φ)
    (sp : FVec Ideal t φ → FVec Ideal s φ) (g : s.Idx → t.Idx) (hsp : ∀ v i, sp v i = v (g i))
    (hu : ∀ j, u j = 1) (hc : ∀ j, c j ≠ 0) :
    mulf A (sp (Host.divf u c)) = Host.divf A (sp c) := by
  funext i
  show A i * sp (Host.divf u c) i = Ideal.div (A i) (sp c i)
  rw [hsp, hsp]
  show A i * Ideal.div (u (g i)) (c (g i)) = _
  rw [hu]
  exact mul_div_one _ _ (hc _)

end Idealize.ShloMosaic.IdealRecip
-- ==== Proof.HostRead.lean ====
/-
  What the host operations around the two kernels leave in the buffers the kernels read, and the kernel program's
  result as a function of its arguments.

  Before the first kernel the host computes, from the edge list, each edge's source and destination node, the degree
  of every node (a scatter-add of ones), the reciprocal 1 / max (degree, 1), the sum over each node's incoming edges
  of the source's features (a gather followed by a scatter-add), and scales that sum by the broadcast reciprocal; it
  also transposes the first layer's weights and views the bias as a row.  Between the kernels it does the same with
  the first kernel's output in place of the features, reusing the source and destination nodes and the reciprocal
  degree, and prepares the second layer's weights and bias.  These are the same operations, on the same arguments, as
  the reference program's, except that the reference DIVIDES the neighbour sum by the broadcast max (degree, 1)
  where the kernel program MULTIPLIES by the broadcast reciprocal.  On the extended reals x · (1 / c) = x / c
  whenever c ≠ 0, and max (degree, 1) ≥ 1 is never zero, so the two neighbour averages are equal, whatever the
  arguments hold.

  Each kernel's output array is its layer's function of the arrays it finds on entry, so the program's result is the
  second layer's function of the second average, the first layer's output, the transposed weights, the bias and the
  hierarchy matrix: the reference's result term, stage by stage.
-/
import proofs.«181247_j57294863729409_2_alg».proof.Proof.Gen.KernelIdeal.Frame
import proofs.«181247_j57294863729409_2_alg».proof.Proof.Gen.ReferenceIdeal.Read
import proofs.«181247_j57294863729409_2_alg».proof.Proof.Region0
import proofs.«181247_j57294863729409_2_alg».proof.Proof.Region1
import proofs.«181247_j57294863729409_2_alg».proof.Proof.RefValue
import proofs.«181247_j57294863729409_2_alg».proof.Proof.LibIdealRecip
import Idealize.ShloMosaic.Lib.ValueLayout

set_option maxRecDepth 16384

noncomputable section

namespace Cert.KernelIdeal.SageHost

open Cert.KernelIdeal Cert.KernelIdeal.Gen Cert.KernelIdeal.SageValue Cert.Sage
open Idealize.ShloMosaic Idealize.ShloMosaic.TcCoe Idealize.ShloMosaic.StableHlo Idealize.ShloMosaic.ValueIdx
open Idealize.SL Idealize.SL.Sem
open Cert.ReferenceIdeal.Read Cert.ReferenceIdeal.RefValue

variable (m : (ℓ : Loc nD τ sig) → Buf (Elt Ideal) ℓ) (ρ : Dev nD → PrngReg) (c : Dev nD)

/-! ## The arguments, typed as the arrays they are -/

abbrev a0 : (⟨S100000x12, .f32⟩ : BufTy).Contents (Elt Ideal) := m ((c : Thread nD τ).loc main_arg0)
abbrev a1 : (⟨S2x3200000, .i32⟩ : BufTy).Contents (Elt Ideal) := m ((c : Thread nD τ).loc main_arg1)
abbrev a2 : (⟨S64x12, .f32⟩ : BufTy).Contents (Elt Ideal) := m ((c : Thread nD τ).loc main_arg2)
abbrev a3 : (⟨S64x12, .f32⟩ : BufTy).Contents (Elt Ideal) := m ((c : Thread nD τ).loc main_arg3)
abbrev a4 : (⟨S64, .f32⟩ : BufTy).Contents (Elt Ideal) := m ((c : Thread nD τ).loc main_arg4)
abbrev a5 : (⟨S13x64, .f32⟩ : BufTy).Contents (Elt Ideal) := m ((c : Thread nD τ).loc main_arg5)
abbrev a6 : (⟨S13x64, .f32⟩ : BufTy).Contents (Elt Ideal) := m ((c : Thread nD τ).loc main_arg6)
abbrev a7 : (⟨S13, .f32⟩ : BufTy).Contents (Elt Ideal) := m ((c : Thread nD τ).loc main_arg7)
abbrev a8 : (⟨S13x13, .f32⟩ : BufTy).Contents (Elt Ideal) := m ((c : Thread nD τ).loc main_arg8)

/-- The reciprocal of max (degree, 1), as a column: what both layers' neighbour sums are scaled by. -/
def recipCol : FVec Ideal S100000x1 .f32 :=
  broadcastInDim S100000x1 ![0] bcast_S100000_S100000x1_0
    (Host.divf (F := Ideal) (s := S100000) (φ := .f32) (val_main_v18 (F := Ideal)) (val_main_v19 (F := Ideal) (a1 m c)))

/-- The sum, over each node's incoming edges, of the source node's row of `h`. -/
def nbrSum64 (h : FVec Ideal S100000x64 .f32) : FVec Ideal S100000x64 .f32 :=
  Host.scatterAdd Cert.ReferenceIdeal.scatter_S100000x64_S3200000x1_S3200000x64_1_0_0_1 (val_main_v43 (F := Ideal)) (val_main_v44 (F := Ideal) (a1 m c))
    (Host.gather Cert.ReferenceIdeal.gather_S100000x64_S3200000x1_S3200000x64_1_0_n_n_0_1_164 h (val_main_v41 (F := Ideal) (a1 m c)))

/-! ## After the first stretch of host operations -/

theorem W1_v1 : W1 m ρ c (Proc.devRef .tc main_v1) = val_main_v1 (F := Ideal) (a1 m c) := by
  show StableHlo.after hostOps0 (W0 m ρ c) (Proc.devRef .tc main_v1) = _
  after_results_simp <;> rfl

theorem W1_v3 : W1 m ρ c (Proc.devRef .tc main_v3) = val_main_v3 (F := Ideal) (a1 m c) := by
  show StableHlo.after hostOps0 (W0 m ρ c) (Proc.devRef .tc main_v3) = _
  after_results_simp <;> rfl

theorem W1_v12 : W1 m ρ c (Proc.devRef .tc main_v12) = recipCol m c := by
  show StableHlo.after hostOps0 (W0 m ρ c) (Proc.devRef .tc main_v12) = _
  after_results_simp <;> rfl

theorem W1_v24 : W1 m ρ c (Proc.devRef .tc main_v24)
    = (mulf (val_main_v13 (F := Ideal) (a0 m c) (a1 m c))
        (broadcastInDim S100000x12 ![0, 1] bcast_S100000x1_S100000x12_0_1 (recipCol m c)) : FVec Ideal S100000x12 .f32) := by
  show StableHlo.after hostOps0 (W0 m ρ c) (Proc.devRef .tc main_v24) = _
  after_results_simp <;> rfl

theorem W1_arg0 : W1 m ρ c (Proc.devRef .tc main_arg0) = a0 m c := by
  show StableHlo.after hostOps0 (W0 m ρ c) (Proc.devRef .tc main_arg0) = _
  after_results_simp <;> rfl

theorem W1_v25 : W1 m ρ c (Proc.devRef .tc main_v25) = val_main_v23 (F := Ideal) (a2 m c) := by
  show StableHlo.after hostOps0 (W0 m ρ c) (Proc.devRef .tc main_v25) = _
  after_results_simp <;> rfl

theorem W1_v26 : W1 m ρ c (Proc.devRef .tc main_v26) = val_main_v25 (F := Ideal) (a3 m c) := by
  show StableHlo.after hostOps0 (W0 m ρ c) (Proc.devRef .tc main_v26) = _
  after_results_simp <;> rfl

theorem W1_v27 : W1 m ρ c (Proc.devRef .tc main_v27) = (shapeCast S1x64 (a4 m c) shapeCasts_S64_S1x64 : FVec Ideal S1x64 .f32) := by
  show StableHlo.after hostOps0 (W0 m ρ c) (Proc.devRef .tc main_v27) = _
  after_results_simp <;> rfl

theorem W1_arg5 : W1 m ρ c (Proc.devRef .tc main_arg5) = a5 m c := by
  show StableHlo.after hostOps0 (W0 m ρ c) (Proc.devRef .tc main_arg5) = _
  after_results_simp <;> rfl

theorem W1_arg6 : W1 m ρ c (Proc.devRef .tc main_arg6) = a6 m c := by
  show StableHlo.after hostOps0 (W0 m ρ c) (Proc.devRef .tc main_arg6) = _
  after_results_simp <;> rfl

theorem W1_arg7 : W1 m ρ c (Proc.devRef .tc main_arg7) = a7 m c := by
  show StableHlo.after hostOps0 (W0 m ρ c) (Proc.devRef .tc main_arg7) = _
  after_results_simp <;> rfl

theorem W1_arg8 : W1 m ρ c (Proc.devRef .tc main_arg8) = a8 m c := by
  show StableHlo.after hostOps0 (W0 m ρ c) (Proc.devRef .tc main_arg8) = _
  after_results_simp <;> rfl

end Cert.KernelIdeal.SageHost

end
-- ==== Proof.KernelValue.lean ====
/-
  The kernel program's result is the reference's result term of the same arguments.

  Three facts are joined here.  First, a neighbour sum scaled by the broadcast reciprocal 1 / max (degree, 1) is that
  sum divided by the broadcast max (degree, 1): x · (1 / c) = x / c on the extended reals whenever c ≠ 0, and
  max (degree, 1) ≥ 1.  Second, the buffers the second kernel finds on entry are the first kernel's output — the
  first layer's function of ITS entry arrays — and the same host operations applied to it.  Third, each kernel's
  output array is its layer's function of its entry arrays.  Substituting one into the other, layer by layer, gives
  the reference's stages: the first layer's output, then the second layer's.
-/
import proofs.«181247_j57294863729409_2_alg».proof.Proof.HostRead

set_option maxRecDepth 16384

noncomputable section

namespace Cert.KernelIdeal.SageHost

open Cert.KernelIdeal Cert.KernelIdeal.Gen Cert.KernelIdeal.SageValue Cert.Sage
open Idealize.ShloMosaic Idealize.ShloMosaic.TcCoe Idealize.ShloMosaic.StableHlo Idealize.ShloMosaic.ValueIdx
open Idealize.SL Idealize.SL.Sem
open Cert.ReferenceIdeal.Read Cert.ReferenceIdeal.RefValue

variable (m : (ℓ : Loc nD τ sig) → Buf (Elt Ideal) ℓ) (ρ : Dev nD → PrngReg) (c : Dev nD)

/-! ## Scaling by the reciprocal is dividing -/

/-- The bit pattern of the constant one denotes the extended real 1. -/
theorem one_pattern : Ideal.ofBits .f32 0x3F800000#32 = 1 := by
  simp [Ideal.ofBits, Ideal.ieee, -EReal.coe_mul]; norm_num

/-- The array of ones is 1 at every node. -/
theorem ones_apply (j : S100000.Idx) : val_main_v18 (F := Ideal) j = 1 := by
  rw [val_main_v18_apply, val_main_cst_3_apply]
  exact one_pattern

/-- max (degree, 1) is nowhere zero. -/
theorem degMax_ne_zero (j : S100000.Idx) : val_main_v19 (F := Ideal) (a1 m c) j ≠ 0 := by
  rw [val_main_v19_apply, ones_apply]
  exact IdealRecip.max_one_ne_zero _

/-- A per-node value broadcast to a column and then along twelve features reads, at (p, q), the value at p. -/
theorem col_to12 (v : FVec Ideal S100000 .f32) (i : S100000x12.Idx) :
    broadcastInDim S100000x12 ![0, 1] bcast_S100000x1_S100000x12_0_1 (broadcastInDim S100000x1 ![0] bcast_S100000_S100000x1_0 v) i
      = v (ix1 (⟨(i 0).val, (i 0).isLt⟩ : Fin 100000)) := by
  refine (broadcastInDim_apply _ bcast_S100000x1_S100000x12_0_1 _ i (ix2 (⟨(i 0).val, (i 0).isLt⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 v _ (ix1 (⟨(i 0).val, (i 0).isLt⟩ : Fin 100000)) (fun a => match a with
    | ⟨0, _⟩ => by show (i 0).val = if (100000 : Nat) = 1 then 0 else (i 0).val; rw [if_neg (by decide)])

/-- The same along sixty-four features. -/
theorem col_to64 (v : FVec Ideal S100000 .f32) (i : S100000x64.Idx) :
    broadcastInDim S100000x64 ![0, 1] bcast_S100000x1_S100000x64_0_1 (broadcastInDim S100000x1 ![0] bcast_S100000_S100000x1_0 v) i
      = v (ix1 (⟨(i 0).val, (i 0).isLt⟩ : Fin 100000)) := by
  refine (broadcastInDim_apply _ bcast_S100000x1_S100000x64_0_1 _ i (ix2 (⟨(i 0).val, (i 0).isLt⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 v _ (ix1 (⟨(i 0).val, (i 0).isLt⟩ : Fin 100000)) (fun a => match a with
    | ⟨0, _⟩ => by show (i 0).val = if (100000 : Nat) = 1 then 0 else (i 0).val; rw [if_neg (by decide)])

/-- An array of twelve features per node, scaled by the broadcast reciprocal 1 / d, is the array over the broadcast d,
    for every per-node d without a zero entry. -/
theorem scale12 (A : FVec Ideal S100000x12 .f32) (d : FVec Ideal S100000 .f32) (hd : ∀ j, d j ≠ 0) :
    mulf A (broadcastInDim S100000x12 ![0, 1] bcast_S100000x1_S100000x12_0_1 (broadcastInDim S100000x1 ![0] bcast_S100000_S100000x1_0
        (Host.divf (F := Ideal) (s := S100000) (φ := .f32) (val_main_v18 (F := Ideal)) d)))
      = Host.divf (F := Ideal) (s := S100000x12) (φ := .f32) A
          (broadcastInDim S100000x12 ![0, 1] bcast_S100000x1_S100000x12_0_1 (broadcastInDim S100000x1 ![0] bcast_S100000_S100000x1_0 d)) := by
  funext i
  refine (mulf_apply _ _ i).trans ?_
  rw [col_to12]
  refine Eq.trans ?_ (congrArg (fun z => Ideal.div (A i) z) (col_to12 d i)).symm
  show A i * Ideal.div (val_main_v18 (F := Ideal) _) (d _) = _
  rw [ones_apply]
  exact IdealRecip.mul_div_one _ _ (hd _)

/-- The same for sixty-four features per node. -/
theorem scale64 (A : FVec Ideal S100000x64 .f32) (d : FVec Ideal S100000 .f32) (hd : ∀ j, d j ≠ 0) :
    mulf A (broadcastInDim S100000x64 ![0, 1] bcast_S100000x1_S100000x64_0_1 (broadcastInDim S100000x1 ![0] bcast_S100000_S100000x1_0
        (Host.divf (F := Ideal) (s := S100000) (φ := .f32) (val_main_v18 (F := Ideal)) d)))
      = Host.divf (F := Ideal) (s := S100000x64) (φ := .f32) A
          (broadcastInDim S100000x64 ![0, 1] bcast_S100000x1_S100000x64_0_1 (broadcastInDim S100000x1 ![0] bcast_S100000_S100000x1_0 d)) := by
  funext i
  refine (mulf_apply _ _ i).trans ?_
  rw [col_to64]
  refine Eq.trans ?_ (congrArg (fun z => Ideal.div (A i) z) (col_to64 d i)).symm
  show A i * Ideal.div (val_main_v18 (F := Ideal) _) (d _) = _
  rw [ones_apply]
  exact IdealRecip.mul_div_one _ _ (hd _)

/-- The first layer's divisor: max (degree, 1) broadcast to a column and then along twelve features. -/
theorem divisor12_eq : val_main_v21 (F := Ideal) (a1 m c)
    = broadcastInDim S100000x12 ![0, 1] bcast_S100000x1_S100000x12_0_1 (broadcastInDim S100000x1 ![0] bcast_S100000_S100000x1_0 (val_main_v19 (F := Ideal) (a1 m c))) := by
  generalize a1 m c = e
  rfl

/-- The first layer's neighbour sum scaled by the reciprocal degree is the reference's neighbour average. -/
theorem avg12_eq : (mulf (val_main_v13 (F := Ideal) (a0 m c) (a1 m c))
        (broadcastInDim S100000x12 ![0, 1] bcast_S100000x1_S100000x12_0_1 (recipCol m c)) : FVec Ideal S100000x12 .f32)
      = val_main_v22 (F := Ideal) (a0 m c) (a1 m c) := by
  rw [v22_eq, divisor12_eq]
  unfold recipCol
  exact scale12 _ _ (degMax_ne_zero m c)

/-- The second layer's divisor is the first layer's: the same max (degree, 1), broadcast along sixty-four features. -/
theorem divisor64_eq : val_main_v53 (F := Ideal) (a1 m c)
    = broadcastInDim S100000x64 ![0, 1] bcast_S100000x1_S100000x64_0_1 (broadcastInDim S100000x1 ![0] bcast_S100000_S100000x1_0 (val_main_v19 (F := Ideal) (a1 m c))) := by
  generalize a1 m c = e
  rfl

/-- A neighbour sum of sixty-four features scaled by the reciprocal degree is that sum over the broadcast degree. -/
theorem avg64_eq (h : FVec Ideal S100000x64 .f32) :
    (mulf (nbrSum64 m c h) (broadcastInDim S100000x64 ![0, 1] bcast_S100000x1_S100000x64_0_1 (recipCol m c)) : FVec Ideal S100000x64 .f32)
      = Host.divf (F := Ideal) (s := S100000x64) (φ := .f32) (nbrSum64 m c h) (val_main_v53 (F := Ideal) (a1 m c)) := by
  rw [divisor64_eq]
  unfold recipCol
  exact scale64 _ _ (degMax_ne_zero m c)

/-- The reference's second neighbour sum is the neighbour sum of its first layer's output. -/
theorem v45_eq : val_main_v45 (F := Ideal) (a0 m c) (a1 m c) (a2 m c) (a3 m c) (a4 m c)
    = nbrSum64 m c (val_main_v31 (F := Ideal) (a0 m c) (a1 m c) (a2 m c) (a3 m c) (a4 m c)) := by
  unfold val_main_v45 val_main_v42 nbrSum64
  rfl

/-- A bias viewed as a row, read along the row, is the bias. -/
theorem bias64_eq : (fun q : Fin 64 => (shapeCast S1x64 (a4 m c) shapeCasts_S64_S1x64 : FVec Ideal S1x64 .f32) (ix2 (0 : Fin 1) q))
    = fun q => a4 m c (ix1 q) :=
  funext fun q => shapeCast_a_1a_apply (a4 m c) shapeCasts_S64_S1x64 0 q

theorem bias13_eq : (fun q : Fin 13 => (shapeCast S1x13 (a7 m c) shapeCasts_S13_S1x13 : FVec Ideal S1x13 .f32) (ix2 (0 : Fin 1) q))
    = fun q => a7 m c (ix1 q) :=
  funext fun q => shapeCast_a_1a_apply (a7 m c) shapeCasts_S13_S1x13 0 q

/-! ## After the first kernel -/

/-- The first kernel's output array is the reference's first layer. -/
theorem W2_v28 : W2 m ρ c (Proc.devRef .tc main_v28) = val_main_v31 (F := Ideal) (a0 m c) (a1 m c) (a2 m c) (a3 m c) (a4 m c) := by
  refine ((W2_arr m ρ c 5).trans (final0 (V1 m ρ) c)).trans ?_
  unfold layer1
  rw [show V1 m ρ c main_v24 = _ from W1_v24 m ρ c, show V1 m ρ c main_arg0 = _ from W1_arg0 m ρ c,
    show V1 m ρ c main_v25 = _ from W1_v25 m ρ c, show V1 m ρ c main_v26 = _ from W1_v26 m ρ c,
    show V1 m ρ c main_v27 = _ from W1_v27 m ρ c]
  rw [avg12_eq, bias64_eq, layer1_eq]

theorem W2_v1 : W2 m ρ c (Proc.devRef .tc main_v1) = val_main_v1 (F := Ideal) (a1 m c) :=
  (W2_of_ne m ρ c main_v1 (by decide)).trans (W1_v1 m ρ c)
theorem W2_v3 : W2 m ρ c (Proc.devRef .tc main_v3) = val_main_v3 (F := Ideal) (a1 m c) :=
  (W2_of_ne m ρ c main_v3 (by decide)).trans (W1_v3 m ρ c)
theorem W2_v12 : W2 m ρ c (Proc.devRef .tc main_v12) = recipCol m c :=
  (W2_of_ne m ρ c main_v12 (by decide)).trans (W1_v12 m ρ c)
theorem W2_arg5 : W2 m ρ c (Proc.devRef .tc main_arg5) = a5 m c :=
  (W2_of_ne m ρ c main_arg5 (by decide)).trans (W1_arg5 m ρ c)
theorem W2_arg6 : W2 m ρ c (Proc.devRef .tc main_arg6) = a6 m c :=
  (W2_of_ne m ρ c main_arg6 (by decide)).trans (W1_arg6 m ρ c)
theorem W2_arg7 : W2 m ρ c (Proc.devRef .tc main_arg7) = a7 m c :=
  (W2_of_ne m ρ c main_arg7 (by decide)).trans (W1_arg7 m ρ c)
theorem W2_arg8 : W2 m ρ c (Proc.devRef .tc main_arg8) = a8 m c :=
  (W2_of_ne m ρ c main_arg8 (by decide)).trans (W1_arg8 m ρ c)

/-! ## After the second stretch of host operations: what the second kernel finds -/

theorem V3_v40 : V3 m ρ c main_v40
    = (mulf (nbrSum64 m c (val_main_v31 (F := Ideal) (a0 m c) (a1 m c) (a2 m c) (a3 m c) (a4 m c)))
        (broadcastInDim S100000x64 ![0, 1] bcast_S100000x1_S100000x64_0_1 (recipCol m c)) : FVec Ideal S100000x64 .f32) := by
  show StableHlo.after hostOps1 (W2 m ρ c) (Proc.devRef .tc main_v40) = _
  after_results_simp
  rw [W2_v1, W2_v3, W2_v12, W2_v28]
  generalize val_main_v31 (F := Ideal) (a0 m c) (a1 m c) (a2 m c) (a3 m c) (a4 m c) = h
  generalize recipCol m c = r
  rfl

theorem V3_v28 : V3 m ρ c main_v28 = val_main_v31 (F := Ideal) (a0 m c) (a1 m c) (a2 m c) (a3 m c) (a4 m c) := by
  show StableHlo.after hostOps1 (W2 m ρ c) (Proc.devRef .tc main_v28) = _
  after_results_simp
  exact W2_v28 m ρ c

theorem V3_v41 : V3 m ρ c main_v41 = val_main_v55 (F := Ideal) (a5 m c) := by
  show StableHlo.after hostOps1 (W2 m ρ c) (Proc.devRef .tc main_v41) = _
  after_results_simp
  rw [W2_arg5]
  rfl

theorem V3_v42 : V3 m ρ c main_v42 = val_main_v57 (F := Ideal) (a6 m c) := by
  show StableHlo.after hostOps1 (W2 m ρ c) (Proc.devRef .tc main_v42) = _
  after_results_simp
  rw [W2_arg6]
  rfl

theorem V3_v43 : V3 m ρ c main_v43 = (shapeCast S1x13 (a7 m c) shapeCasts_S13_S1x13 : FVec Ideal S1x13 .f32) := by
  show StableHlo.after hostOps1 (W2 m ρ c) (Proc.devRef .tc main_v43) = _
  after_results_simp
  rw [W2_arg7]
  rfl

theorem V3_arg8 : V3 m ρ c main_arg8 = a8 m c := by
  show StableHlo.after hostOps1 (W2 m ρ c) (Proc.devRef .tc main_arg8) = _
  after_results_simp
  exact W2_arg8 m ρ c

/-! ## The result -/

/-- THE KERNEL PROGRAM'S RESULT: the reference's result term of the same arguments. -/
theorem kernel_result : W4 m ρ c (Proc.devRef .tc main_v44)
    = val_main_v74 (F := Ideal) (a0 m c) (a1 m c) (a2 m c) (a3 m c) (a4 m c) (a5 m c) (a6 m c) (a7 m c) (a8 m c) := by
  refine ((W4_arr m ρ c 6).trans (final1 (V3 m ρ) c)).trans ?_
  unfold layer2
  rw [V3_v40, V3_v28, V3_v41, V3_v42, V3_v43, V3_arg8, avg64_eq, ← v45_eq, ← v54_eq, bias13_eq, layer2_eq]

end Cert.KernelIdeal.SageHost

end
-- ==== Proof.lean ====
/-
  A two-layer graph network with a hierarchy constraint, computed by two tiled kernels among host operations, against
  its plain reference — equal results on the extended reals.

  Both programs compute, for every node, the average of its in-neighbours' features (the sum over incoming edges
  divided by max (degree, 1)), pass the average and the node's own features through a linear layer with a bias, and
  clamp at zero; they repeat this on the result with a second linear layer, squash with the logistic function, and
  finally replace each class score by the largest product of a class's score with its entry of the hierarchy matrix.

  The kernel program differs from the reference in four ways, none of which changes a value on the extended reals:
  it MULTIPLIES each neighbour sum by the reciprocal 1 / max (degree, 1) where the reference divides
  (x · (1 / c) = x / c whenever c ≠ 0, and max (degree, 1) ≥ 1); it computes the two layers block of rows by block
  of rows, which is the same function because an output row depends only on the same row of the row operands; it
  rounds the operands of its matrix products to a narrower format, which is the identity on the extended reals; and
  it writes the logistic function as one operation and the final product in the other order, where the reference
  writes 1 / (1 + e^(−s)) and R · out (the same function, and a commutative product).  No step needs the inputs to be
  finite, so the precondition is never opened.

  The frames are the generated ones; the reference's frame is its generated run with the result dropped.  The
  idealization rewrote nothing, so there is nothing to preserve.
-/
import proofs.«181247_j57294863729409_2_alg».proof.Defs
import proofs.«181247_j57294863729409_2_alg».proof.Proof.Gen.Kernel
import proofs.«181247_j57294863729409_2_alg».proof.Proof.Gen.Kernel.Skeleton
import proofs.«181247_j57294863729409_2_alg».proof.Proof.Gen.Kernel.Launch
import proofs.«181247_j57294863729409_2_alg».proof.Proof.Gen.Kernel.Points
import proofs.«181247_j57294863729409_2_alg».proof.Proof.Gen.Kernel.Frame
import proofs.«181247_j57294863729409_2_alg».proof.Proof.Gen.KernelIdeal
import proofs.«181247_j57294863729409_2_alg».proof.Proof.Gen.KernelIdeal.Skeleton
import proofs.«181247_j57294863729409_2_alg».proof.Proof.Gen.KernelIdeal.Launch
import proofs.«181247_j57294863729409_2_alg».proof.Proof.Gen.KernelIdeal.Points
import proofs.«181247_j57294863729409_2_alg».proof.Proof.Gen.KernelIdeal.Frame
import proofs.«181247_j57294863729409_2_alg».proof.Proof.Gen.ReferenceIdeal
import proofs.«181247_j57294863729409_2_alg».proof.Proof.Gen.ReferenceIdeal.Run
import proofs.«181247_j57294863729409_2_alg».proof.Proof.Gen.ReferenceIdeal.Read
import proofs.«181247_j57294863729409_2_alg».proof.Proof.Gen.Pre_finite_inputs
import proofs.«181247_j57294863729409_2_alg».proof.Proof.KernelRun
import proofs.«181247_j57294863729409_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories agreeing on the arguments both programs run, and the kernel program's result array — the second
    layer's function of what its two kernels and host operations leave — is the reference's result term. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.SageRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.SageHost.kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
